-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S128x128 : Shape := ⟨2, ![128, 128]⟩
abbrev S10000x128 : Shape := ⟨2, ![10000, 128]⟩
abbrev S10000x1 : Shape := ⟨2, ![10000, 1]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 55
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S128x128, .f32⟩
  | .hbm, ⟨29, _⟩ => ⟨S50000x128, .bf16⟩
  | .hbm, ⟨30, _⟩ => ⟨S128x128, .bf16⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  concatenates_S128x64_S128x64_S128x128_d1 : Shape.Concatenates [S128x64, S128x64] S128x128 1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S50000x128_S50000x64_0_0 : S50000x128.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x128_S50000x64_0_64 : S50000x128.Slices ![0, 64] S50000x64
  scatter_S50000_S850000x1_S850000_n_0_0_1_wf : ScatterDims.WF S50000 S850000x1 S850000 [] [0] [0] 1
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S850000x1, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelBlock.lean ====
/-
  What the matrix-product region leaves in its output array.

  The region walks five blocks of 10000 rows. At each block it multiplies the block's rows of the left operand
  [50000, 128] by the whole right operand [128, 128], accumulating into zero, and scales row r of the product by
  the r-th entry of a column [50000, 1]. Block t of the output therefore holds, at (p, q),
      d[10000 t + p] · Σ_k x[10000 t + p, k] · w[k, q],
  which is block t of ONE function of the three arrays; the five blocks tile the output, so the array ends
  holding that function:  out[r, q] = d[r] · Σ_k x[r, k] · w[k, q].
-/
import proofs.«172382_j23441931501602_2_alg».proof.Proof.Gen.KernelIdeal.Frame
import proofs.«172382_j23441931501602_2_alg».proof.Proof.LibPlainDot
import proofs.«172382_j23441931501602_2_alg».proof.Proof.LibColumn
import Idealize.ShloMosaic.Lib.Pipeline.Value
import Idealize.ShloMosaic.Lib.ValueIdx

-- membership in a rectangle of these extents: the elaborator's structural look recurses once per coordinate
set_option maxRecDepth 16384

noncomputable section

namespace Cert.KernelIdeal.Block

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-! ## One block: the body's result at an entry -/

/-- Entry (p, q) of the body's result on a block: the column's entry p times the plain sum over the contracted
    axis. The two same-shape casts are identities, the column is repeated along the row, and the product into the
    zero accumulator is the sum of products. -/
theorem pay_apply (x0 : FVec Ideal S10000x128 .bf16) (x1 : FVec Ideal S128x128 .bf16) (x2 : FVec Ideal S10000x1 .f32)
    (p : Fin 10000) (q : Fin 128) :
    Gen.k0_pay1 (F := Ideal) x0 x1 x2 (ix2 p q)
      = x2 (ix2 p (0 : Fin 1)) * ∑ k : Fin 128, x0 (ix2 p k) * x1 (ix2 k q) := by
  unfold Gen.k0_pay1
  refine (mulf_apply _ _ (ix2 p q)).trans ?_
  refine congrArg₂ (· * ·) ?_ ?_
  · refine (Cert.Column.broadcastTo_a1_ab_apply _ _ p q).trans ?_
    rw [shapeCast_self]
  · rw [shapeCast_self, shapeCast_self]
    exact PlainDot.matmul_zero_apply dot_S10000x128_S128x128_S10000x128_1_0_0_1_n_n none rfl rfl
      (fun _ _ => rfl) (fun _ _ => rfl) (fun _ _ => rfl) (fun _ _ => rfl) x0 x1 p q

/-! ## The whole array as one function -/

/-- Entry (r, q) of the row-scaled product of a column `d`, a left operand `x` and a right operand `w`. -/
def entry (d : S50000x1.Idx → EReal) (x : S50000x128.Idx → EReal) (w : S128x128.Idx → EReal)
    (r : Fin 50000) (q : Fin 128) : EReal :=
  d (ix2 r (0 : Fin 1)) * ∑ k : Fin 128, x (ix2 r k) * w (ix2 k q)

/-- `entry` written out. -/
theorem entry_def (d : S50000x1.Idx → EReal) (x : S50000x128.Idx → EReal) (w : S128x128.Idx → EReal)
    (r : Fin 50000) (q : Fin 128) :
    entry d x w r q = d (ix2 r (0 : Fin 1)) * ∑ k : Fin 128, x (ix2 r k) * w (ix2 k q) := rfl

/-- What the output array ends holding: the row-scaled product of the three arrays as the region finds them. -/
def G (c : Dev nD) : S50000x128.Idx → EReal := fun i =>
  entry (V m c main_v15) (V m c main_v17) (V m c main_v18) (i 0) (i 1)

/-- `G` at an entry given by its coordinates. -/
theorem G_apply (c : Dev nD) (r : Fin 50000) (q : Fin 128) :
    G m c (ix2 r q) = entry (V m c main_v15) (V m c main_v17) (V m c main_v18) r q := rfl

/-! ## The index maps, decided once over the five grid points -/

theorem hz : (![0, 0] : Fin 2 → Nat) = fun _ => 0 := funext fun a => by fin_cases a <;> rfl

/-- The left operand's and the column's row blocks move with the output's; no window moves along the second axis;
    the right operand's window never moves; the output's row-block index stays below five. -/
theorem idx_facts : ∀ t : Fin cfg0.N,
    win0_0.index t (0 : Fin 2) = win0_3.index t (0 : Fin 2)
    ∧ win0_2.index t (0 : Fin 2) = win0_3.index t (0 : Fin 2)
    ∧ win0_0.index t (1 : Fin 2) = 0
    ∧ win0_2.index t (1 : Fin 2) = 0
    ∧ win0_3.index t (1 : Fin 2) = 0
    ∧ win0_1.index t (0 : Fin 2) = 0
    ∧ win0_1.index t (1 : Fin 2) = 0
    ∧ win0_3.index t (0 : Fin 2) ≤ 4 :=
  (by decide +kernel : ∀ t : Fin grid0.N, _)

/-- Every row block of the output is SOME point's. -/
theorem idx_onto : ∀ q0 : Fin 5, ∃ t : Fin cfg0.N, win0_3.index t (0 : Fin 2) = q0.val :=
  (by decide +kernel : ∀ q0 : Fin 5, ∃ t : Fin grid0.N, win0_3.index t (0 : Fin 2) = q0.val)

/-! ## Reading an array through a window's block -/

/-- The output window's block at point `t` reads an array at the indices the block's rectangle names. -/
theorem read3_apply (g : S50000x128.Idx → EReal) (t : Fin cfg0.N) (j : S10000x128.Idx) :
    ((cfg0.win 3).blk t).view.read (Elt Ideal) g j = g (((cfg0.win 3).blk t).view.emb j) := rfl
/-- So does the left operand's, -/
theorem read0_apply (g : S50000x128.Idx → EReal) (t : Fin cfg0.N) (j : S10000x128.Idx) :
    ((cfg0.win 0).blk t).view.read (Elt Ideal) g j = g (((cfg0.win 0).blk t).view.emb j) := rfl
/-- the right operand's, -/
theorem read1_apply (g : S128x128.Idx → EReal) (t : Fin cfg0.N) (j : S128x128.Idx) :
    ((cfg0.win 1).blk t).view.read (Elt Ideal) g j = g (((cfg0.win 1).blk t).view.emb j) := rfl
/-- and the column's. -/
theorem read2_apply (g : S50000x1.Idx → EReal) (t : Fin cfg0.N) (j : S10000x1.Idx) :
    ((cfg0.win 2).blk t).view.read (Elt Ideal) g j = g (((cfg0.win 2).blk t).view.emb j) := rfl

/-- The blocks the body is run on are those reads of the arrays as the region finds them. -/
theorem iblk0_eq (c : Dev nD) (t : Fin cfg0.N) :
    iblk m c 0 t = ((cfg0.win 0).blk t).view.read (Elt Ideal) (V m c main_v17) := rfl
theorem iblk1_eq (c : Dev nD) (t : Fin cfg0.N) :
    iblk m c 1 t = ((cfg0.win 1).blk t).view.read (Elt Ideal) (V m c main_v18) := rfl
theorem iblk2_eq (c : Dev nD) (t : Fin cfg0.N) :
    iblk m c 2 t = ((cfg0.win 2).blk t).view.read (Elt Ideal) (V m c main_v15) := rfl

/-! ## What a point writes back -/

/-- WHAT POINT `t` WRITES BACK is block `t` of `G`: row p of the block is row (block index) · 10000 + p of the
    left operand, of the column and of the output, and the right operand is read whole. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S10000x128) hz, View.ld_unit_zero (S := S128x128) hz,
    View.ld_unit_zero (S := S10000x1) hz]
  obtain ⟨e0, e2, z0, z2, z3, w0, w1, b3⟩ := idx_facts t
  funext j
  obtain ⟨p, q, rfl⟩ : ∃ (p : Fin 10000) (q : Fin 128), j = ix2 p q := ⟨j 0, j 1, eq_ix2 j⟩
  have hp : p.val < 10000 := p.isLt
  -- the row of the arrays under row p of the block
  obtain ⟨R, hR⟩ : ∃ R : Fin 50000, R.val = win0_3.index t (0 : Fin 2) * 10000 + p.val :=
    ⟨⟨win0_3.index t (0 : Fin 2) * 10000 + p.val, by omega⟩, rfl⟩
  have h3 : ((cfg0.win 3).blk t).view.emb (ix2 p q) = ix2 R q := by
    funext a; apply Fin.ext
    match a with
    | ⟨0, _⟩ => show win0_3.index t (0 : Fin 2) * 10000 + 1 * p.val = R.val; omega
    | ⟨1, _⟩ => show win0_3.index t (1 : Fin 2) * 128 + 1 * q.val = q.val; omega
  have h0 : ∀ k : Fin 128, ((cfg0.win 0).blk t).view.emb (ix2 p k) = ix2 R k := fun k => by
    funext a; apply Fin.ext
    match a with
    | ⟨0, _⟩ => show win0_0.index t (0 : Fin 2) * 10000 + 1 * p.val = R.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = ix2 R (0 : Fin 1) := by
    funext a; apply Fin.ext
    match a with
    | ⟨0, _⟩ => show win0_2.index t (0 : Fin 2) * 10000 + 1 * p.val = R.val; omega
    | ⟨1, _⟩ => show win0_2.index t (1 : Fin 2) * 1 + 1 * 0 = 0; omega
  refine (pay_apply (iblk m c 0 t) (iblk m c 1 t) (iblk m c 2 t) p q).trans ?_
  refine Eq.trans ?_ (read3_apply (G m c) t (ix2 p q)).symm
  rw [h3, G_apply]
  unfold entry
  refine congrArg₂ (· * ·) ?_ (Finset.sum_congr rfl fun k _ => congrArg₂ (· * ·) ?_ ?_)
  · exact (congrFun (iblk2_eq m c t) (ix2 p (0 : Fin 1))).trans
      ((read2_apply (V m c main_v15) t (ix2 p (0 : Fin 1))).trans (congrArg (V m c main_v15) h2))
  · exact (congrFun (iblk0_eq m c t) (ix2 p k)).trans
      ((read0_apply (V m c main_v17) t (ix2 p k)).trans (congrArg (V m c main_v17) (h0 k)))
  · exact (congrFun (iblk1_eq m c t) (ix2 k q)).trans
      ((read1_apply (V m c main_v18) t (ix2 k q)).trans (congrArg (V m c main_v18) (h1 k)))

/-! ## The five blocks tile the array -/

/-- An index of the array is in point `t`'s block iff each coordinate is in the block's range on its axis. -/
theorem mem_blk3 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v19).slice (win0_3.rect t)).set ↔ _
  rw [View.set_slice_whole, Rect.mem_set_unit]
  exact Iff.rfl

/-- Every index of the output is in SOME point's block: row r lies in the row block of index r / 10000. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 10000, by omega⟩
  have q0 : win0_3.index t (0 : Fin 2) = (i 0).val / 10000 := ht
  obtain ⟨-, -, -, -, z3, -, -, -⟩ := idx_facts t
  refine ⟨t, flush0_3 t, ?_⟩
  rw [mem_blk3]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-! ## The array after the run -/

/-- THE OUTPUT ARRAY after the run is the row-scaled product of the three arrays the region reads. -/
theorem final3 (c : Dev nD) : (dats m 0 c).arrAt 3 cfg0.N = G m c :=
  (dats m 0 c).arrAt_eq_of_cover 3 (G m c) (fun t _ => flushed3_eq m c t) cover3

/-- The same, entry by entry. -/
theorem final3_apply (c : Dev nD) (r : Fin 50000) (q : Fin 128) :
    (dats m 0 c).arrAt 3 cfg0.N (ix2 r q) = entry (V m c main_v15) (V m c main_v17) (V m c main_v18) r q :=
  (congrFun (final3 m c) (ix2 r q)).trans (G_apply m c r q)

end Cert.KernelIdeal.Block

end
-- ==== Proof.KernelHost.lean ====
/-
  The host side of the kernel program, read as pure functions of @main's arguments.

  Before the region the program computes, from the edge-index array alone: the source and destination index vectors
  (each row of the array with the node numbers 0 … 49999 appended: a self-loop per node), the in-degree (a scatter-add of
  ones by destination), and the normalization factor `where(deg > 0, rsqrt deg, 0)`; and, from the weights, the two weight
  matrices side by side. The region then sees the factor as a column, the features and the joined weights in bf16.
  After the region the program gathers the region's rows by source (a negative index wrapped first), scatter-adds them by
  destination, scales each row by its factor, and cuts the two halves of the columns, adding each half's bias.

  Each stretch of host operations is read at an arbitrary valuation of the buffers, one lemma per buffer read later;
  the stretches are then composed.
-/
import proofs.«172382_j23441931501602_2_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-! ## The chain every later value shares -/

/-- The source index vector: row 0 of the edge-index array, then the node numbers. -/
def srcK (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- The destination index vector: row 1 of the edge-index array, then the node numbers. -/
def dstK (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- The in-degree: ones scatter-added by destination onto zeros. -/
def degK (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32))
    (broadcastInDim S850000x1 ![0] bcast_S850000_S850000x1_0 (dstK (F := F) ei))
    (broadcastInDim S850000 ![] bcast_S_S850000 (constant (F := F) S_ .f32 0x3F800000#32))

/-- The normalization factor: the reciprocal square root of the degree where it is positive, zero elsewhere. -/
def dinvK (ei : (⟨S2x800000, .i32⟩ : BufTy).Contents (Elt F)) : (⟨S50000, .f32⟩ : BufTy).Contents (Elt F) :=
  select (cmpf .ogt (degK (F := F) ei) (broadcastInDim S50000 ![] bcast_S_S50000 (constant (F := F) S_ .f32 0x00000000#32)))
    (Host.rsqrt (degK (F := F) ei))
    (broadcastInDim S50000 ![] bcast_S_S50000 (id (constant (F := F) S_ .f32 0x00000000#32)))

/-! ## The first stretch: eighteen operations on the edge-index array -/

theorem s0_v3 (W : Valuation τ sig (Elt F)) :
    after hostOps0 W (Proc.devRef .tc main_v3) = srcK (F := F) (W (Proc.devRef .tc main_arg1)) := by
  after_results <;> rfl

theorem s0_v6 (W : Valuation τ sig (Elt F)) :
    after hostOps0 W (Proc.devRef .tc main_v6) = dstK (F := F) (W (Proc.devRef .tc main_arg1)) := by
  after_results <;> rfl

theorem s0_v12 (W : Valuation τ sig (Elt F)) :
    after hostOps0 W (Proc.devRef .tc main_v12)
      = cmpf .ogt (degK (F := F) (W (Proc.devRef .tc main_arg1))) (broadcastInDim S50000 ![] bcast_S_S50000 (constant (F := F) S_ .f32 0x00000000#32)) := by
  after_results <;> rfl

theorem s0_v13 (W : Valuation τ sig (Elt F)) :
    after hostOps0 W (Proc.devRef .tc main_v13) = Host.rsqrt (degK (F := F) (W (Proc.devRef .tc main_arg1))) := by
  after_results <;> rfl

theorem s0_cst_2 (W : Valuation τ sig (Elt F)) :
    after hostOps0 W (Proc.devRef .tc main_cst_2) = constant (F := F) S_ .f32 0x00000000#32 := by
  after_results <;> rfl

theorem s0_arg0 (W : Valuation τ sig (Elt F)) : after hostOps0 W (Proc.devRef .tc main_arg0) = W (Proc.devRef .tc main_arg0) := by
  after_results
theorem s0_arg2 (W : Valuation τ sig (Elt F)) : after hostOps0 W (Proc.devRef .tc main_arg2) = W (Proc.devRef .tc main_arg2) := by
  after_results
theorem s0_arg4 (W : Valuation τ sig (Elt F)) : after hostOps0 W (Proc.devRef .tc main_arg4) = W (Proc.devRef .tc main_arg4) := by
  after_results

/-! ## The second stretch: the `where` of three operations -/

theorem s1_v14 (W : Valuation τ sig (Elt F)) :
    after hostOps0_1 W (Proc.devRef .tc main_v14)
      = select (W (Proc.devRef .tc main_v12)) (W (Proc.devRef .tc main_v13))
          (broadcastInDim S50000 ![] bcast_S_S50000 (id (W (Proc.devRef .tc main_cst_2)))) := by
  after_results <;> rfl

theorem s1_v3 (W : Valuation τ sig (Elt F)) : after hostOps0_1 W (Proc.devRef .tc main_v3) = W (Proc.devRef .tc main_v3) := by
  after_results
theorem s1_v6 (W : Valuation τ sig (Elt F)) : after hostOps0_1 W (Proc.devRef .tc main_v6) = W (Proc.devRef .tc main_v6) := by
  after_results
theorem s1_arg0 (W : Valuation τ sig (Elt F)) : after hostOps0_1 W (Proc.devRef .tc main_arg0) = W (Proc.devRef .tc main_arg0) := by
  after_results
theorem s1_arg2 (W : Valuation τ sig (Elt F)) : after hostOps0_1 W (Proc.devRef .tc main_arg2) = W (Proc.devRef .tc main_arg2) := by
  after_results
theorem s1_arg4 (W : Valuation τ sig (Elt F)) : after hostOps0_1 W (Proc.devRef .tc main_arg4) = W (Proc.devRef .tc main_arg4) := by
  after_results

/-! ## The third stretch: the region's three operands -/

theorem s2_v15 (W : Valuation τ sig (Elt F)) :
    after hostOps0_2 W (Proc.devRef .tc main_v15) = broadcastInDim S50000x1 ![0] bcast_S50000_S50000x1_0 (W (Proc.devRef .tc main_v14)) := by
  after_results <;> rfl

theorem s2_v17 (W : Valuation τ sig (Elt F)) :
    after hostOps0_2 W (Proc.devRef .tc main_v17) = truncf .bf16 (W (Proc.devRef .tc main_arg0)) bitsLt_bf16_f32 := by
  after_results <;> rfl

theorem s2_v18 (W : Valuation τ sig (Elt F)) :
    after hostOps0_2 W (Proc.devRef .tc main_v18)
      = truncf .bf16 (concatenate S128x128 1 [⟨S128x64, W (Proc.devRef .tc main_arg2)⟩, ⟨S128x64, W (Proc.devRef .tc main_arg4)⟩]
          concatenates_S128x64_S128x64_S128x128_d1) bitsLt_bf16_f32 := by
  after_results <;> rfl

theorem s2_v3 (W : Valuation τ sig (Elt F)) : after hostOps0_2 W (Proc.devRef .tc main_v3) = W (Proc.devRef .tc main_v3) := by
  after_results
theorem s2_v6 (W : Valuation τ sig (Elt F)) : after hostOps0_2 W (Proc.devRef .tc main_v6) = W (Proc.devRef .tc main_v6) := by
  after_results

/-! ## The three stretches composed: what the region finds -/

/-- The buffers' contents at the region's entry, stretch after stretch. -/
theorem V0_eq (m : (ℓ : Loc nD τ sig) → Buf (Elt F) ℓ) (c : Dev nD) :
    V0 m c = after hostOps0_2 (after hostOps0_1 (after hostOps0 (fun b => m (c, b)))) := by
  show StableHlo.after (List.flatten [hostOps0, hostOps0_1, hostOps0_2]) (fun b => m (c, b)) = _
  simp only [List.flatten_cons, List.flatten_nil, List.append_nil]
  rw [StableHlo.after_append, StableHlo.after_append]

theorem V_v3 (m : (ℓ : Loc nD τ sig) → Buf (Elt F) ℓ) (c : Dev nD) :
    V m c main_v3 = srcK (F := F) (m ((c : Thread nD τ).loc main_arg1)) := by
  show V0 m c (Proc.devRef .tc main_v3) = _
  rw [V0_eq, s2_v3, s1_v3, s0_v3]

theorem V_v6 (m : (ℓ : Loc nD τ sig) → Buf (Elt F) ℓ) (c : Dev nD) :
    V m c main_v6 = dstK (F := F) (m ((c : Thread nD τ).loc main_arg1)) := by
  show V0 m c (Proc.devRef .tc main_v6) = _
  rw [V0_eq, s2_v6, s1_v6, s0_v6]

theorem V_v15 (m : (ℓ : Loc nD τ sig) → Buf (Elt F) ℓ) (c : Dev nD) :
    V m c main_v15 = broadcastInDim S50000x1 ![0] bcast_S50000_S50000x1_0 (dinvK (F := F) (m ((c : Thread nD τ).loc main_arg1))) := by
  show V0 m c (Proc.devRef .tc main_v15) = _
  rw [V0_eq, s2_v15, s1_v14, s0_v12, s0_v13, s0_cst_2]
  rfl

theorem V_v17 (m : (ℓ : Loc nD τ sig) → Buf (Elt F) ℓ) (c : Dev nD) :
    V m c main_v17 = truncf .bf16 (m ((c : Thread nD τ).loc main_arg0)) bitsLt_bf16_f32 := by
  show V0 m c (Proc.devRef .tc main_v17) = _
  rw [V0_eq, s2_v17, s1_arg0, s0_arg0]

theorem V_v18 (m : (ℓ : Loc nD τ sig) → Buf (Elt F) ℓ) (c : Dev nD) :
    V m c main_v18 = truncf .bf16 (concatenate S128x128 1 [⟨S128x64, m ((c : Thread nD τ).loc main_arg2)⟩, ⟨S128x64, m ((c : Thread nD τ).loc main_arg4)⟩]
        concatenates_S128x64_S128x64_S128x128_d1) bitsLt_bf16_f32 := by
  show V0 m c (Proc.devRef .tc main_v18) = _
  rw [V0_eq, s2_v18, s1_arg2, s1_arg4, s0_arg2, s0_arg4]

/-! ## After the region -/

/-- The aggregation: rows of `h` gathered by source (a negative index wrapped by the row count) and scatter-added by
    destination onto zeros. -/
def aggK (h : (⟨S50000x128, .f32⟩ : BufTy).Contents (Elt F)) (srcv dstv : (⟨S850000, .i32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 dstv)
    (Host.gather gather_S50000x128_S850000x1_S850000x128_1_0_n_n_0_1_1128 h
      (broadcastInDim S850000x1 ![0] bcast_S850000_S850000x1_0
        (select (cmpi .slt srcv (broadcastInDim S850000 ![] bcast_S_S850000 (constantI S_ 32 0#32)))
          (addi srcv (broadcastInDim S850000 ![] bcast_S_S850000 (constantI S_ 32 50000#32))) srcv)))

/-- The aggregate with each row scaled by its factor. -/
def scaledK (dcol : (⟨S50000x1, .f32⟩ : BufTy).Contents (Elt F)) (h : (⟨S50000x128, .f32⟩ : BufTy).Contents (Elt F))
    (srcv dstv : (⟨S850000, .i32⟩ : BufTy).Contents (Elt F)) : (⟨S50000x128, .f32⟩ : BufTy).Contents (Elt F) :=
  mulf (broadcastInDim S50000x128 ![0, 1] bcast_S50000x1_S50000x128_0_1 dcol) (aggK (F := F) h srcv dstv)

/-- The first result: columns 0 … 63 plus the first bias. -/
def outLoK (dcol : (⟨S50000x1, .f32⟩ : BufTy).Contents (Elt F)) (h : (⟨S50000x128, .f32⟩ : BufTy).Contents (Elt F))
    (srcv dstv : (⟨S850000, .i32⟩ : BufTy).Contents (Elt F)) (b : (⟨S64, .f32⟩ : BufTy).Contents (Elt F)) :
    (⟨S50000x64, .f32⟩ : BufTy).Contents (Elt F) :=
  addf (extractStridedSlice S50000x64 ![0, 0] (scaledK (F := F) dcol h srcv dstv) slices_S50000x128_S50000x64_0_0)
    (broadcastInDim S50000x64 ![0, 1] bcast_S1x64_S50000x64_0_1 (broadcastInDim S1x64 ![1] bcast_S64_S1x64_1 b))

/-- The second result: columns 64 … 127 plus the second bias. -/
def outHiK (dcol : (⟨S50000x1, .f32⟩ : BufTy).Contents (Elt F)) (h : (⟨S50000x128, .f32⟩ : BufTy).Contents (Elt F))
    (srcv dstv : (⟨S850000, .i32⟩ : BufTy).Contents (Elt F)) (b : (⟨S64, .f32⟩ : BufTy).Contents (Elt F)) :
    (⟨S50000x64, .f32⟩ : BufTy).Contents (Elt F) :=
  addf (extractStridedSlice S50000x64 ![0, 64] (scaledK (F := F) dcol h srcv dstv) slices_S50000x128_S50000x64_0_64)
    (broadcastInDim S50000x64 ![0, 1] bcast_S1x64_S50000x64_0_1 (broadcastInDim S1x64 ![1] bcast_S64_S1x64_1 b))

set_option maxHeartbeats 2000000 in
theorem t_v35 (W : Valuation τ sig (Elt F)) :
    after hostOps1 W (Proc.devRef .tc main_v35)
      = outLoK (F := F) (W (Proc.devRef .tc main_v15)) (W (Proc.devRef .tc main_v19)) (W (Proc.devRef .tc main_v3))
          (W (Proc.devRef .tc main_v6)) (W (Proc.devRef .tc main_arg3)) := by
  after_results_simp <;> rfl

set_option maxHeartbeats 2000000 in
theorem t_v39 (W : Valuation τ sig (Elt F)) :
    after hostOps1 W (Proc.devRef .tc main_v39)
      = outHiK (F := F) (W (Proc.devRef .tc main_v15)) (W (Proc.devRef .tc main_v19)) (W (Proc.devRef .tc main_v3))
          (W (Proc.devRef .tc main_v6)) (W (Proc.devRef .tc main_arg5)) := by
  after_results_simp <;> rfl

end Cert.KernelIdeal.HostSide

end
-- ==== Proof.LibScatterRows.lean ====
/-
  A scatter-add of rows, read at one entry over the extended reals.

  jax's `segment_sum(upd, seg, num_segments = N)` lowers to a scatter with an `add` body: the operand is an [N, W]
  array (or an [N] vector), the scatter indices an [E, 1] column of segment ids, the updates an [E, W] array (or an
  [E] vector); update row `e` is added into operand row `seg e`, the id read as a SIGNED integer and not clamped, and a
  row whose id falls outside [0, N) is dropped. At the exact instance the result entry (n, k) is therefore

      x[n, k] + Σ_{e : seg e = n} upd[e, k],

  a plain sum over the update rows, column by column: column `k` of the result depends on column `k` of the updates only.
  That is what lets one scatter of a widened array [upd | extra] stand for two scatters of its parts.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

variable {N E W w : Nat}

/-- The segment id of update row `e`: entry (e, 0) of the index column, read signed. -/
def seg (idx : IVec ⟨2, ![E, 1]⟩ w) (e : Fin E) : Int := (idx (ix2 e (0 : Fin 1))).toInt

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Rows: operand [N, W], indices [E, 1], updates [E, W] -/

/-- The dimension numbers of a row scatter: the updates' axis 1 is the window axis, the operand's axis 0 is the
    inserted (scattered) one and the one the index names, the index vector is the indices' axis 1. -/
abbrev rowDims (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

theorem row_window0 (wf) (j : (⟨2, ![E, W]⟩ : Shape).Idx) : (rowDims N E W wf).window j 0 = 0 := rfl
theorem row_window1 (wf) (j : (⟨2, ![E, W]⟩ : Shape).Idx) : (rowDims N E W wf).window j 1 = (j 1).val := rfl
theorem row_start1 (wf) (j : (⟨2, ![E, W]⟩ : Shape).Idx) (idx : IVec ⟨2, ![E, 1]⟩ w) :
    (rowDims N E W wf).start j idx 1 = 0 := rfl

/-- Update (e, k) reads its start index at (e, 0) of the index column. -/
theorem row_siIdx (wf) (j : (⟨2, ![E, W]⟩ : Shape).Idx) (c : Fin (rowDims N E W wf).scatterDimsToOperandDims.length) :
    (rowDims N E W wf).siIdx j c = ix2 (j 0) (0 : Fin 1) := by
  funext b; refine Fin.ext ?_
  match b with
  | ⟨0, _⟩ => rfl
  | ⟨1, _⟩ =>
    show c.val = 0
    have := c.isLt
    simp only [List.length_singleton] at this
    omega

theorem row_start0 (wf) (j : (⟨2, ![E, W]⟩ : Shape).Idx) (idx : IVec ⟨2, ![E, 1]⟩ w) :
    (rowDims N E W wf).start j idx 0 = seg idx (j 0) := by
  unfold ScatterDims.start seg
  rw [dif_pos (show (0 : Fin 2) ∈ (rowDims N E W wf).scatterDimsToOperandDims from List.mem_singleton.mpr rfl)]
  exact congrArg (fun q => (idx q).toInt) (row_siIdx wf j _)

/-- Update (e, k) lands on operand entry (n, k') exactly when row `e`'s segment id is `n` and the columns agree. -/
theorem row_resultIdx?_eq_some_iff (wf) (j : (⟨2, ![E, W]⟩ : Shape).Idx) (idx : IVec ⟨2, ![E, 1]⟩ w)
    (i : (⟨2, ![N, W]⟩ : Shape).Idx) :
    (rowDims N E W wf).resultIdx? j idx = some i ↔ seg idx (j 0) = ((i 0).val : Int) ∧ (j 1).val = (i 1).val := by
  have h0 : (rowDims N E W wf).start j idx 0 + ((rowDims N E W wf).window j 0 : Nat) = seg idx (j 0) := by
    rw [row_start0, row_window0]; simp
  have h1 : (rowDims N E W wf).start j idx 1 + ((rowDims N E W wf).window j 1 : Nat) = ((j 1).val : Int) := by
    rw [row_start1, row_window1]; simp
  have hi0 : (i 0).val < N := (i 0).isLt
  have hi1 : (i 1).val < W := (i 1).isLt
  have hj1 : (j 1).val < W := (j 1).isLt
  unfold ScatterDims.resultIdx?
  split
  · rename_i h
    rw [Option.some.injEq]
    constructor
    · intro hf
      have e0 : ((rowDims N E W wf).start j idx 0 + ((rowDims N E W wf).window j 0 : Nat)).toNat = (i 0).val :=
        congrArg (fun f => (f 0).val) hf
      have e1 : ((rowDims N E W wf).start j idx 1 + ((rowDims N E W wf).window j 1 : Nat)).toNat = (i 1).val :=
        congrArg (fun f => (f 1).val) hf
      have g0 := (h 0).1
      rw [h0] at e0 g0
      rw [h1] at e1
      constructor <;> omega
    · rintro ⟨a, b⟩
      funext ax; refine Fin.ext ?_
      match ax with
      | ⟨0, _⟩ =>
        show ((rowDims N E W wf).start j idx 0 + ((rowDims N E W wf).window j 0 : Nat)).toNat = (i 0).val
        rw [h0, a]; simp
      | ⟨1, _⟩ =>
        show ((rowDims N E W wf).start j idx 1 + ((rowDims N E W wf).window j 1 : Nat)).toNat = (i 1).val
        rw [h1]; omega
  · rename_i h
    constructor
    · intro hc; cases hc
    · rintro ⟨a, b⟩
      exfalso; apply h
      intro ax
      match ax with
      | ⟨0, _⟩ =>
        show 0 ≤ (rowDims N E W wf).start j idx 0 + ((rowDims N E W wf).window j 0 : Nat) ∧
          (rowDims N E W wf).start j idx 0 + ((rowDims N E W wf).window j 0 : Nat) < (N : Int)
        rw [h0, a]; constructor <;> omega
      | ⟨1, _⟩ =>
        show 0 ≤ (rowDims N E W wf).start j idx 1 + ((rowDims N E W wf).window j 1 : Nat) ∧
          (rowDims N E W wf).start j idx 1 + ((rowDims N E W wf).window j 1 : Nat) < (W : Int)
        rw [h1]; constructor <;> omega

/-- THE ROW SCATTER-ADD READ AT (n, k): the operand's entry plus the sum, over the update rows whose segment id is
    `n`, of their entry in column `k`. -/
theorem scatterAdd_rows_apply {φ : FTy} (wf) (x : FVec Ideal ⟨2, ![N, W]⟩ φ) (idx : IVec ⟨2, ![E, 1]⟩ w)
    (upd : FVec Ideal ⟨2, ![E, W]⟩ φ) (n : Fin N) (k : Fin W) :
    Host.scatterAdd (rowDims N E W wf) x idx upd (ix2 n k)
      = x (ix2 n k) + ∑ e : Fin E, if seg idx e = (n.val : Int) then upd (ix2 e k) else 0 := by
  unfold Host.scatterAdd
  rw [Ideal.hostScatterAdd_def]
  unfold Ideal.hostScatterAdd
  congr 1
  rw [Finset.sum_filter, sum_idx2]
  refine Finset.sum_congr rfl fun e _ => ?_
  have hP : ∀ b : Fin W, ((rowDims N E W wf).resultIdx? (ix2 e b) idx = some (ix2 n k)) ↔
      (seg idx e = (n.val : Int) ∧ b = k) := fun b =>
    (row_resultIdx?_eq_some_iff wf (ix2 e b) idx (ix2 n k)).trans
      ⟨fun h => ⟨h.1, Fin.ext h.2⟩, fun h => ⟨h.1, congrArg Fin.val h.2⟩⟩
  rw [Finset.sum_congr rfl (fun b _ => if_congr (hP b) rfl rfl)]
  by_cases hs : seg idx e = (n.val : Int)
  · simp only [hs, true_and, if_true]
    rw [Finset.sum_ite_eq']
    simp
  · simp only [hs, false_and, if_false, Finset.sum_const_zero]

/-! ## Vectors: operand [N], indices [E, 1], updates [E] -/

/-- The dimension numbers of a vector scatter: no window axis; the operand's one axis is inserted and named by the
    index; the index vector is the indices' axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_window0 (wf) (j : (⟨1, ![E]⟩ : Shape).Idx) : (vecDims N E wf).window j 0 = 0 := rfl

theorem vec_siIdx (wf) (j : (⟨1, ![E]⟩ : Shape).Idx) (c : Fin (vecDims N E wf).scatterDimsToOperandDims.length) :
    (vecDims N E wf).siIdx j c = ix2 (j 0) (0 : Fin 1) := by
  funext b; refine Fin.ext ?_
  match b with
  | ⟨0, _⟩ => rfl
  | ⟨1, _⟩ =>
    show c.val = 0
    have := c.isLt
    simp only [List.length_singleton] at this
    omega

theorem vec_start0 (wf) (j : (⟨1, ![E]⟩ : Shape).Idx) (idx : IVec ⟨2, ![E, 1]⟩ w) :
    (vecDims N E wf).start j idx 0 = seg idx (j 0) := by
  unfold ScatterDims.start seg
  rw [dif_pos (show (0 : Fin 1) ∈ (vecDims N E wf).scatterDimsToOperandDims from List.mem_singleton.mpr rfl)]
  exact congrArg (fun q => (idx q).toInt) (vec_siIdx wf j _)

/-- Update `e` lands on operand entry `n` exactly when its segment id is `n`. -/
theorem vec_resultIdx?_eq_some_iff (wf) (j : (⟨1, ![E]⟩ : Shape).Idx) (idx : IVec ⟨2, ![E, 1]⟩ w)
    (i : (⟨1, ![N]⟩ : Shape).Idx) :
    (vecDims N E wf).resultIdx? j idx = some i ↔ seg idx (j 0) = ((i 0).val : Int) := by
  have h0 : (vecDims N E wf).start j idx 0 + ((vecDims N E wf).window j 0 : Nat) = seg idx (j 0) := by
    rw [vec_start0, vec_window0]; simp
  have hi0 : (i 0).val < N := (i 0).isLt
  unfold ScatterDims.resultIdx?
  split
  · rename_i h
    rw [Option.some.injEq]
    constructor
    · intro hf
      have e0 : ((vecDims N E wf).start j idx 0 + ((vecDims N E wf).window j 0 : Nat)).toNat = (i 0).val :=
        congrArg (fun f => (f 0).val) hf
      have g0 := (h 0).1
      rw [h0] at e0 g0
      omega
    · intro a
      funext ax; refine Fin.ext ?_
      match ax with
      | ⟨0, _⟩ =>
        show ((vecDims N E wf).start j idx 0 + ((vecDims N E wf).window j 0 : Nat)).toNat = (i 0).val
        rw [h0, a]; simp
  · rename_i h
    constructor
    · intro hc; cases hc
    · intro a
      exfalso; apply h
      intro ax
      match ax with
      | ⟨0, _⟩ =>
        show 0 ≤ (vecDims N E wf).start j idx 0 + ((vecDims N E wf).window j 0 : Nat) ∧
          (vecDims N E wf).start j idx 0 + ((vecDims N E wf).window j 0 : Nat) < (N : Int)
        rw [h0, a]; constructor <;> omega

/-- THE VECTOR SCATTER-ADD READ AT `n`: the operand's entry plus the sum of the updates whose segment id is `n`. -/
theorem scatterAdd_vec_apply {φ : FTy} (wf) (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e : Fin E, if seg idx e = (n.val : Int) then upd (ix1 e) else 0 := by
  unfold Host.scatterAdd
  rw [Ideal.hostScatterAdd_def]
  unfold Ideal.hostScatterAdd
  congr 1
  rw [Finset.sum_filter, sum_idx1]
  refine Finset.sum_congr rfl fun e _ => ?_
  exact if_congr (vec_resultIdx?_eq_some_iff wf (ix1 e) idx (ix1 n)) rfl rfl

end Idealize.ShloMosaic.ScatterRows

end
-- ==== Proof.LibGather.lean ====
/-
  A gather of entries or of rows by an index column, read at one result entry.

  `x[idx]` for a vector `x : [N]` (or an array of rows `x : [N, W]`) at a column of indices `idx : [E, 1]` lowers
  to a gather whose start index names the operand's axis 0, which is collapsed; for the rows the operand's axis 1 is an
  offset axis carried over whole. Result entry `e` (or `(e, k)`) is the operand's entry at row `idx[e, 0]`, the index
  read as a SIGNED integer and clamped into [0, N − 1], as every gather start index is.
-/
import Idealize.ShloMosaic.PureOps.Ideal
import Idealize.ShloMosaic.PureOps.Contract
import Idealize.ShloMosaic.Lib.ValueIdx

namespace Idealize.ShloMosaic.GatherRows

open Idealize.ShloMosaic Idealize.ShloMosaic.ValueIdx

variable {α : Type} {N E W w : Nat}

/-- The row a gather reads for index word `v` over `N` rows: `v` read signed, clamped into [0, N − 1]. -/
def clampRow (N : Nat) (hN : 0 < N) {w : Nat} (v : BitVec w) : Fin N := ⟨min v.toInt.toNat (N - 1), by omega⟩

/-! ## Vectors: operand [N], indices [E, 1], result [E] -/

/-- The dimension numbers of a vector gather: no offset axis; the operand's one axis is collapsed and named by the
    start index; the index vector is the indices' axis 1; slices of one entry. -/
abbrev gatherVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` reads its start index at (e, 0) of the index column. -/
theorem vec_siIdx (wf) (j : (⟨1, ![E]⟩ : Shape).Idx) (c : Fin (gatherVecDims N E wf).startIndexMap.length) :
    (gatherVecDims N E wf).siIdx j c = ix2 (j 0) (0 : Fin 1) := by
  funext b; refine Fin.ext ?_
  match b with
  | ⟨0, _⟩ => rfl
  | ⟨1, _⟩ =>
    show c.val = 0
    have := c.isLt
    simp only [List.length_singleton] at this
    omega

/-- THE VECTOR GATHER READ AT `e`: the operand at the index `idx[e, 0]`, read signed and clamped into [0, N − 1]. -/
theorem gather_vec_apply (hN : 0 < N) (wf) (x : (⟨1, ![N]⟩ : Shape).Idx → α) (idx : IVec ⟨2, ![E, 1]⟩ w) (e : Fin E) :
    Host.gather (gatherVecDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  rw [vec_siIdx]
  rfl

/-! ## Rows: operand [N, W], indices [E, 1], result [E, W] -/

/-- The dimension numbers of a row gather: the result's axis 1 is the offset axis (the operand's axis 1, whole); the
    operand's axis 0 is collapsed and named by the start index; the index vector is the indices' axis 1; slices of one
    row. -/
abbrev gatherRowDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Result entry (e, k) reads its start index at (e, 0) of the index column. -/
theorem row_siIdx (wf) (j : (⟨2, ![E, W]⟩ : Shape).Idx) (c : Fin (gatherRowDims N E W wf).startIndexMap.length) :
    (gatherRowDims N E W wf).siIdx j c = ix2 (j 0) (0 : Fin 1) := by
  funext b; refine Fin.ext ?_
  match b with
  | ⟨0, _⟩ => rfl
  | ⟨1, _⟩ =>
    show c.val = 0
    have := c.isLt
    simp only [List.length_singleton] at this
    omega

/-- THE ROW GATHER READ AT (e, k): the operand's entry in column `k` of the row `idx[e, 0]`, read signed and clamped
    into [0, N − 1]. -/
theorem gather_rows_apply (hN : 0 < N) (wf) (x : (⟨2, ![N, W]⟩ : Shape).Idx → α) (idx : IVec ⟨2, ![E, 1]⟩ w)
    (e : Fin E) (k : Fin W) :
    Host.gather (gatherRowDims N E W wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (gatherRowDims N E W wf).start (ix2 e k) idx 0 + (gatherRowDims N E W wf).batchCoord (ix2 e k) 0
      + (gatherRowDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N E W wf).startIndexMap from List.mem_singleton.mpr rfl)]
    rw [row_siIdx]
    rfl
  | ⟨1, _⟩ =>
    show (gatherRowDims N E W wf).start (ix2 e k) idx 1 + (gatherRowDims N E W wf).batchCoord (ix2 e k) 1
      + (gatherRowDims N E W wf).offCoord (ix2 e k) 1 = k.val
    rw [GatherDims.batchCoord_eq_zero _ _ _ List.not_mem_nil]
    have hs : (gatherRowDims N E W wf).start (ix2 e k) idx 1 = 0 := by
      unfold GatherDims.start
      rw [dif_neg (fun h => absurd (congrArg Fin.val (List.mem_singleton.mp h)) Nat.one_ne_zero)]
    rw [hs]
    simp only [Nat.add_zero, Nat.zero_add]
    rfl

end Idealize.ShloMosaic.GatherRows
-- ==== Proof.LibHostRows.lean ====
/-
  Host-side (array program) layouts and reductions of a matrix, read at an index given by coordinates, for any extents.

  A broadcast_in_dim reads its operand at the result's coordinates on the axes it names, and at 0 on the operand's axes
  of extent one. So a vector [n] placed as the row of a [1, n] matrix reads entry c at (u, c), and that row repeated
  down [a, n] reads (0, c) at (p, c); a vector [a] placed as the column of an [a, 1] matrix reads entry p at (p, u), and
  that column repeated across [a, b] reads (p, 0) at (p, c). A reduction of an [R, C] matrix along its second axis at row
  p runs over the entries (p, k), k < C — row p with the coordinate k inserted on the dropped axis is (p, k) —: with a
  maximum body it is the running maximum from the initial value, with an add body, over the extended reals, the initial
  value plus the sum.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.HostRows

open Idealize.ShloMosaic Idealize.ShloMosaic.ValueIdx

variable {α : Type}

/-- A vector [n] as the row of a [1, n] matrix reads, at (u, c), its entry c. -/
theorem rowOfVec_apply {n : ℕ} (v : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h v (ix2 u c) = v (ix1 c) :=
  broadcastInDim_apply _ h v (ix2 u c) (ix1 c) (fun ax => match ax with
    | ⟨0, _⟩ => by
      show c.val = if n = 1 then 0 else c.val
      split
      · have := c.isLt; omega
      · rfl)

/-- A row [1, n] repeated down an [a, n] matrix reads, at (p, c), the row's entry c. -/
theorem rowDown_apply {a n : ℕ} (w : (⟨2, ![1, n]⟩ : Shape).Idx → α)
    (h : (⟨2, ![1, n]⟩ : Shape).BroadcastsInDim ⟨2, ![a, n]⟩ ![0, 1]) (p : Fin a) (c : Fin n) :
    broadcastInDim ⟨2, ![a, n]⟩ ![0, 1] h w (ix2 p c) = w (ix2 (0 : Fin 1) c) :=
  broadcastInDim_apply _ h w (ix2 p c) (ix2 (0 : Fin 1) c) (fun ax => match ax with
    | ⟨0, _⟩ => by
      show (0 : ℕ) = if (1 : ℕ) = 1 then 0 else p.val
      rw [if_pos rfl]
    | ⟨1, _⟩ => by
      show c.val = if n = 1 then 0 else c.val
      split
      · have := c.isLt; omega
      · rfl)

/-- A vector [a] as the column of an [a, 1] matrix reads, at (p, u), its entry p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- A column [a, 1] repeated across an [a, b] matrix reads, at (p, c), the column's entry p. -/
theorem colAcross_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply _ h w (ix2 p c) (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- Row p with the column k inserted on the dropped second axis is the index (p, k). -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- The host's maximum along the second axis of a matrix, at row p: the running maximum, from the initial value, over
    the entries of that row. -/
theorem hostMax_row {R C : ℕ} (x : (⟨2, ![R, C]⟩ : Shape).Idx → EReal) (init : (⟨0, ![]⟩ : Shape).Idx → EReal)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single (FloatOps.maximumf (F := Ideal) (φ := .f32)) x init h' h hu (ix1 p)).trans ?_
  exact congrArg (Finset.fold max (init (Shape.Idx.first hu)) · (Finset.univ : Finset (Fin C)))
    (funext fun k => congrArg x (lift_row h p k))

/-- The host's sum along the second axis of a matrix over the extended reals, at row p: the initial value plus the sum
    of the entries of that row. -/
theorem hostSum_row {R C : ℕ} (x : FVec Ideal ⟨2, ![R, C]⟩ .f32) (init : (⟨0, ![]⟩ : Shape).Idx → Ideal .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) := by
  rw [hostReduceAdd_apply, Ideal.hostReduceAdd_single h' h]
  exact congrArg (init (Shape.Idx.first hu) + ·) (Finset.sum_congr rfl fun k _ => congrArg x (lift_row h p k))

end Cert.HostRows

end
-- ==== Proof.LibNNScale.lean ====
/-
  A nonnegative real factor and a finite sum, on the extended reals.

  Multiplication by an extended real does not distribute over sums in general (an infinite or a negative factor against
  +∞ + −∞), but a NONNEGATIVE REAL factor does. Two uses, both stated with no shape in them:
  the normalization factor `where(deg > 0, rsqrt deg, 0)` of a graph layer is such a factor for EVERY extended real `deg`
  (`nn_dinv`: the reciprocal square root of +∞ is 0, of a positive real a positive real, and otherwise the literal 0), and
  such a factor `d` moves into an aggregate of selected messages, `d * (z + ∑ e, if p e then a e * h e else 0)
  = z + ∑ e, if p e then a' e * h e else 0` when `z = 0` and `a' e = a e * d` on the selected terms (`scale_sum`): what joins a
  program that scales AFTER a scatter-add to one that scales each message BEFORE it.
-/
import Idealize.ShloMosaic.PureOps.Ideal
import Idealize.ShloMosaic.PureOps.Ideal.Laws

open scoped BigOperators

noncomputable section

namespace Cert.Gcn

open Idealize.ShloMosaic

/-! ## The normalization factor is a nonnegative real -/

/-- A nonnegative real among the extended reals. -/
def NN (d : EReal) : Prop := 0 ≤ d ∧ d ≠ ⊤

theorem nn_zero : NN 0 := ⟨le_refl _, EReal.zero_ne_top⟩

/-- The factor `where(deg > 0, rsqrt deg, 0)` is a nonnegative real for EVERY extended real `deg`. -/
theorem nn_dinv (deg : EReal) :
    NN (Scalar.select (Ideal.cmp .ogt deg (Ideal.ofBits .f32 0x00000000#32)) (Ideal.rsqrt deg)
      (Ideal.ofBits .f32 0x00000000#32)) := by
  rw [Ideal.ofBits_zero_f32]
  unfold Scalar.select Ideal.cmp
  by_cases hpos : (0 : EReal) < deg
  · simp only [hpos, decide_true, BitVec.ofBool_true, if_true]
    induction deg using EReal.rec with
    | bot => exact absurd hpos (not_lt.mpr bot_le)
    | top => rw [Ideal.rsqrt_top]; exact nn_zero
    | coe r =>
      have hr : 0 < r := by exact_mod_cast hpos
      rw [Ideal.rsqrt_coe, if_neg (not_lt.mpr hr.le), if_neg hr.ne']
      exact ⟨by exact_mod_cast (inv_nonneg.mpr (Real.sqrt_nonneg r)), EReal.coe_ne_top _⟩
  · simp only [hpos, decide_false, BitVec.ofBool_false]
    rw [if_neg (by decide)]
    exact nn_zero

/-! ## Moving the factor into the sum -/

/-- A nonnegative real distributes over a finite sum of extended reals. -/
theorem nn_mul_sum {ι : Type} (s : Finset ι) (d : EReal) (hd : NN d) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd.1 hd.2, ih]

/-- THE LAW: the receiving node's factor `d`, multiplied onto the aggregated messages `a e * h e` of the selected edges,
    is the aggregate of the messages `a' e * h e` whose coefficient already carries it (`a' e = a e * d` on the selected
    edges); `z` is the accumulator's initial 0. -/
theorem scale_sum {E : ℕ} (d z : EReal) (hd : NN d) (hz : z = 0) (p : Fin E → Prop) [DecidablePred p]
    (a a' h : Fin E → EReal) (ha : ∀ e, p e → a' e = a e * d) :
    d * (z + ∑ e : Fin E, if p e then a e * h e else 0) = z + ∑ e : Fin E, if p e then a' e * h e else 0 := by
  subst hz
  rw [zero_add, zero_add, nn_mul_sum _ d hd]
  refine Finset.sum_congr rfl fun e _ => ?_
  by_cases hp : p e
  · rw [if_pos hp, if_pos hp, ha e hp, mul_left_comm, mul_assoc]
  · rw [if_neg hp, if_neg hp, mul_zero]

end Cert.Gcn

end
-- ==== Proof.Spec.lean ====
/-
  The mathematics shared by the two programs, stated over no program at all.

  A graph-convolution layer with symmetric normalization: with `d` the per-node factor (the reciprocal square root of the
  in-degree, zero where the degree is zero), `ρ e` the source row of edge `e` and `S n` the edges arriving at node `n`,
    one program computes   d n * (0 + ∑ e ∈ S n, d (ρ e) * h (ρ e))
    and the other          0 + ∑ e ∈ S n, (d (ρ e) * d n) * h (ρ e).
  On the extended reals a factor moves into a sum when it is a nonnegative real, and `d n` always is, whatever the degree
  (the general file LibNNScale: `scale_sum`, `nn_dinv`). Here: how an index word names a row.
-/
import proofs.«172382_j23441931501602_2_alg».proof.Proof.LibNNScale
import Idealize.ShloMosaic.PureOps.Ideal
import Idealize.ShloMosaic.PureOps.Ideal.Laws
import Idealize.ShloMosaic.Lib.ValueIdx

open scoped BigOperators

noncomputable section

namespace Cert.Gcn

open Idealize.ShloMosaic

/-! ## Index words -/

/-- The negative-index rule on a 32-bit index word over 50000 rows (a negative word counts from the end): it has the row
    count added. -/
def wrapIdx (b : BitVec 32) : BitVec 32 :=
  Scalar.select (IntOp.cmpi .slt b 0#32) (IntOp.addi b 50000#32) b

/-- The row a gather over 50000 rows reads for index word `b`: wrapped, read signed, clamped into [0, 49999]. -/
def rowOf (b : BitVec 32) : Fin 50000 := ⟨min (wrapIdx b).toInt.toNat (50000 - 1), by omega⟩

/-- A word whose signed value is a row number reads that row: it is not negative, so it is not wrapped, and it is in
    range, so it is not clamped. -/
theorem rowOf_of_toInt (b : BitVec 32) (n : Fin 50000) (h : b.toInt = (n.val : Int)) : rowOf b = n := by
  have hn : ¬ (b.slt 0#32 = true) := by
    rw [BitVec.slt_iff_toInt_lt]
    simp only [BitVec.toInt_zero]
    omega
  have hw : wrapIdx b = b := by
    unfold wrapIdx IntOp.cmpi Scalar.select
    simp only [hn]
    rfl
  refine Fin.ext ?_
  show min (wrapIdx b).toInt.toNat (50000 - 1) = n.val
  rw [hw, h]
  have := n.isLt
  omega

end Cert.Gcn

end
-- ==== Proof.KernelValue.lean ====
/-
  The kernel program's two results read at an entry.

  Entry (n, q) of a result is the bias entry q added to column q' of the scaled aggregate's row n (q' = q for the first
  result, q' = 64 + q for the second); that is the node's factor times the sum, from zero, over the edges whose destination
  word reads n, of the region's output row at the edge's source (wrapped if negative, clamped into the rows), column q'.
-/
import proofs.«172382_j23441931501602_2_alg».proof.Proof.KernelHost
import proofs.«172382_j23441931501602_2_alg».proof.Proof.LibScatterRows
import proofs.«172382_j23441931501602_2_alg».proof.Proof.LibGather
import proofs.«172382_j23441931501602_2_alg».proof.Proof.LibHostRows
import proofs.«172382_j23441931501602_2_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.HostSide

open Cert.KernelIdeal Cert.KernelIdeal.Gen Idealize.ShloMosaic Idealize.ShloMosaic.ValueIdx Cert.Gcn
open Idealize.ShloMosaic.ScatterRows Idealize.ShloMosaic.GatherRows Cert.HostRows

/-- The printed row-scatter record is the row form's. -/
theorem scatterRec_eq : scatter_S50000x128_S850000x1_S850000x128_1_0_0_1
    = rowDims 50000 850000 128 scatter_S50000x128_S850000x1_S850000x128_1_0_0_1_wf := rfl

/-- The printed row-gather record is the row form's. -/
theorem gatherRec_eq : gather_S50000x128_S850000x1_S850000x128_1_0_n_n_0_1_1128
    = gatherRowDims 50000 850000 128 gather_S50000x128_S850000x1_S850000x128_1_0_n_n_0_1_1128_wf := rfl

/-- The aggregate at (n, k): zero plus the sum over the edges arriving at n of `h`'s row at the edge's source, column k. -/
theorem aggK_apply (h : FVec Ideal S50000x128 .f32) (srcv dstv : IVec S850000 32) (n : Fin 50000) (k : Fin 128) :
    aggK (F := Ideal) h srcv dstv (ix2 n k)
      = Ideal.ofBits .f32 0x00000000#32
        + ∑ e : Fin 850000, if (dstv (ix1 e)).toInt = (n.val : Int) then h (ix2 (rowOf (srcv (ix1 e))) k) else 0 := by
  unfold aggK
  rw [scatterRec_eq, gatherRec_eq]
  refine (scatterAdd_rows_apply _ _ _ _ n k).trans ?_
  refine congrArg₂ (· + ·) rfl (Finset.sum_congr rfl fun e _ => ?_)
  have hseg : seg (broadcastInDim S850000x1 ![0] bcast_S850000_S850000x1_0 dstv) e = (dstv (ix1 e)).toInt := by
    unfold seg
    rw [colOfVec_apply dstv bcast_S850000_S850000x1_0 e (0 : Fin 1)]
  rw [hseg]
  refine if_congr Iff.rfl ?_ rfl
  refine (gather_rows_apply (by omega) _ h _ e k).trans ?_
  have hx : (broadcastInDim S850000x1 ![0] bcast_S850000_S850000x1_0
        (select (cmpi .slt srcv (broadcastInDim S850000 ![] bcast_S_S850000 (constantI S_ 32 0#32)))
          (addi srcv (broadcastInDim S850000 ![] bcast_S_S850000 (constantI S_ 32 50000#32))) srcv)) (ix2 e (0 : Fin 1))
      = wrapIdx (srcv (ix1 e)) := by
    rw [colOfVec_apply _ bcast_S850000_S850000x1_0 e (0 : Fin 1)]
    rfl
  exact congrArg (fun r : Fin 50000 => h (ix2 r k))
    (Fin.ext (congrArg (fun b : BitVec 32 => min b.toInt.toNat (50000 - 1)) hx))

/-- The scaled aggregate at (n, k): the node's factor times the aggregate there. -/
theorem scaledK_apply (dcol : FVec Ideal S50000x1 .f32) (h : FVec Ideal S50000x128 .f32) (srcv dstv : IVec S850000 32)
    (n : Fin 50000) (k : Fin 128) :
    scaledK (F := Ideal) dcol h srcv dstv (ix2 n k)
      = dcol (ix2 n (0 : Fin 1)) * aggK (F := Ideal) h srcv dstv (ix2 n k) := by
  unfold scaledK
  show FloatOps.mulf (broadcastInDim S50000x128 ![0, 1] bcast_S50000x1_S50000x128_0_1 dcol (ix2 n k))
      (aggK (F := Ideal) h srcv dstv (ix2 n k)) = _
  rw [colAcross_apply dcol bcast_S50000x1_S50000x128_0_1 n k]
  rfl

/-- The bias row at (n, q) is the bias entry q. -/
theorem bias_apply (b : FVec Ideal S64 .f32) (n : Fin 50000) (q : Fin 64) :
    broadcastInDim S50000x64 ![0, 1] bcast_S1x64_S50000x64_0_1 (broadcastInDim S1x64 ![1] bcast_S64_S1x64_1 b) (ix2 n q) = b (ix1 q) := by
  rw [rowDown_apply _ bcast_S1x64_S50000x64_0_1 n q, rowOfVec_apply b bcast_S64_S1x64_1 (0 : Fin 1) q]

/-- THE FIRST RESULT at (n, q): column q of the scaled aggregate's row n, plus the bias. -/
theorem outLoK_apply (dcol : FVec Ideal S50000x1 .f32) (h : FVec Ideal S50000x128 .f32) (srcv dstv : IVec S850000 32)
    (b : FVec Ideal S64 .f32) (n : Fin 50000) (q : Fin 64) :
    outLoK (F := Ideal) dcol h srcv dstv b (ix2 n q)
      = dcol (ix2 n (0 : Fin 1))
          * (Ideal.ofBits .f32 0x00000000#32
            + ∑ e : Fin 850000, if (dstv (ix1 e)).toInt = (n.val : Int) then
                h (ix2 (rowOf (srcv (ix1 e))) (⟨q.val, by omega⟩ : Fin 128)) else 0)
        + b (ix1 q) := by
  unfold outLoK
  show FloatOps.addf (extractStridedSlice S50000x64 ![0, 0] (scaledK (F := Ideal) dcol h srcv dstv) slices_S50000x128_S50000x64_0_0 (ix2 n q))
      (broadcastInDim S50000x64 ![0, 1] bcast_S1x64_S50000x64_0_1 (broadcastInDim S1x64 ![1] bcast_S64_S1x64_1 b) (ix2 n q)) = _
  rw [bias_apply]
  rw [extractStridedSlice_apply ![0, 0] _ slices_S50000x128_S50000x64_0_0 (ix2 n q) (ix2 n (⟨q.val, by omega⟩ : Fin 128)) (fun a => match a with
    | ⟨0, _⟩ => by show n.val = 0 + n.val; omega
    | ⟨1, _⟩ => by show q.val = 0 + q.val; omega)]
  rw [scaledK_apply, aggK_apply]
  rfl

/-- THE SECOND RESULT at (n, q): column 64 + q of the scaled aggregate's row n, plus the bias. -/
theorem outHiK_apply (dcol : FVec Ideal S50000x1 .f32) (h : FVec Ideal S50000x128 .f32) (srcv dstv : IVec S850000 32)
    (b : FVec Ideal S64 .f32) (n : Fin 50000) (q : Fin 64) :
    outHiK (F := Ideal) dcol h srcv dstv b (ix2 n q)
      = dcol (ix2 n (0 : Fin 1))
          * (Ideal.ofBits .f32 0x00000000#32
            + ∑ e : Fin 850000, if (dstv (ix1 e)).toInt = (n.val : Int) then
                h (ix2 (rowOf (srcv (ix1 e))) (⟨64 + q.val, by omega⟩ : Fin 128)) else 0)
        + b (ix1 q) := by
  unfold outHiK
  show FloatOps.addf (extractStridedSlice S50000x64 ![0, 64] (scaledK (F := Ideal) dcol h srcv dstv) slices_S50000x128_S50000x64_0_64 (ix2 n q))
      (broadcastInDim S50000x64 ![0, 1] bcast_S1x64_S50000x64_0_1 (broadcastInDim S1x64 ![1] bcast_S64_S1x64_1 b) (ix2 n q)) = _
  rw [bias_apply]
  rw [extractStridedSlice_apply ![0, 64] _ slices_S50000x128_S50000x64_0_64 (ix2 n q) (ix2 n (⟨64 + q.val, by omega⟩ : Fin 128)) (fun a => match a with
    | ⟨0, _⟩ => by show n.val = 0 + n.val; omega
    | ⟨1, _⟩ => by show 64 + q.val = 64 + q.val; rfl)]
  rw [scaledK_apply, aggK_apply]
  rfl

end Cert.KernelIdeal.HostSide

end
-- ==== Proof.KernelResult.lean ====
/-
  The kernel program's run with its two results named.

  The generated frame run ends with every buffer the region does not own at what the host operations after the region
  compute from: the region's output array (what the grid points wrote back), the factor column and the index vectors as the
  region found them, and the two bias arguments as launched. Reading those operations (KernelHost) gives each result as one
  function of these five arrays.
-/
import proofs.«172382_j23441931501602_2_alg».proof.Proof.KernelHost
import Idealize.ShloMosaic.PureOps.Ideal

set_option maxRecDepth 16384

noncomputable section

namespace Cert.KernelIdeal.Result

open Cert.KernelIdeal Cert.KernelIdeal.Gen Cert.KernelIdeal.HostSide
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffers' contents when the region is left: the region's arrays as the run leaves them, the rest as it found them. -/
abbrev Wt (c : Dev nD) : Valuation τ sig (Elt Ideal) :=
  Pipeline.withArrays (cfgs 0).spec c (V0 m c) (fun w => (dats m 0 c).arrAt w (cfgs 0).N)

theorem Wt_v19 (c : Dev nD) : Wt m c (Proc.devRef .tc main_v19) = (dats m 0 c).arrAt 3 cfg0.N :=
  Pipeline.withArrays_arr spec0 winFacts0.arr_inj c _ _ 3

/-- The factor column is an input of the region: it leaves it as it entered. -/
theorem Wt_v15 (c : Dev nD) : Wt m c (Proc.devRef .tc main_v15) = V m c main_v15 :=
  (Pipeline.withArrays_arr spec0 winFacts0.arr_inj c _ _ 2).trans (((dats m 0 c).arrAt_in 2 rfl _).trans (A_eq m c 2))

theorem Wt_v3 (c : Dev nD) : Wt m c (Proc.devRef .tc main_v3) = V m c main_v3 :=
  Pipeline.withArrays_of_ne _ c (V0 m c) _ main_v3 (by exact (by decide : ∀ w, Pipeline.arrRef spec0 w ≠ main_v3))

theorem Wt_v6 (c : Dev nD) : Wt m c (Proc.devRef .tc main_v6) = V m c main_v6 :=
  Pipeline.withArrays_of_ne _ c (V0 m c) _ main_v6 (by exact (by decide : ∀ w, Pipeline.arrRef spec0 w ≠ main_v6))

theorem Wt_arg3 (c : Dev nD) : Wt m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem Wt_arg5 (c : Dev nD) : Wt m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The first result after the run. -/
def out0 (c : Dev nD) : Buf (Elt Ideal) ((c.tc : Thread nD τ).loc main_v35) :=
  outLoK (F := Ideal) (V m c main_v15) ((dats m 0 c).arrAt 3 cfg0.N) (V m c main_v3) (V m c main_v6) (m ((c : Thread nD τ).loc main_arg3))

/-- The second result after the run. -/
def out1 (c : Dev nD) : Buf (Elt Ideal) ((c.tc : Thread nD τ).loc main_v39) :=
  outHiK (F := Ideal) (V m c main_v15) ((dats m 0 c).arrAt 3 cfg0.N) (V m c main_v3) (V m c main_v6) (m ((c : Thread nD τ).loc main_arg5))

theorem tail_v35 (c : Dev nD) :
    Pipeline.afterTail₀ cfgs (dats m) 0 (V0 m) [hostOps1] c main_v35 = out0 m c := by
  unfold Pipeline.afterTail₀ out0
  simp only [List.flatten_cons, List.flatten_nil, List.append_nil]
  refine (t_v35 (Wt m c)).trans ?_
  rw [Wt_v15 m c, Wt_v19 m c, Wt_v3 m c, Wt_v6 m c, Wt_arg3 m c]

theorem tail_v39 (c : Dev nD) :
    Pipeline.afterTail₀ cfgs (dats m) 0 (V0 m) [hostOps1] c main_v39 = out1 m c := by
  unfold Pipeline.afterTail₀ out1
  simp only [List.flatten_cons, List.flatten_nil, List.append_nil]
  refine (t_v39 (Wt m c)).trans ?_
  rw [Wt_v15 m c, Wt_v19 m c, Wt_v3 m c, Wt_v6 m c, Wt_arg5 m c]

/-- THE RUN: every weakly fair execution terminates with the two results at `out0`, `out1` and the arguments unchanged. -/
theorem run : θ_run defs (onTc (τ := τ) (main (F := Ideal))) ⟨m, fun _ => 0, ρ⟩ (fun r => ∀ c : Dev nD,
      r.2.mem ((c.tc : Thread nD τ).loc main_v35) = out0 m c
      ∧ r.2.mem ((c.tc : Thread nD τ).loc main_v39) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v35 (Pipeline.mem_restRefs_of main_v35 (by decide) (by decide))).trans (tail_v35 m c),
      ((h c).2 main_v39 (Pipeline.mem_restRefs_of main_v39 (by decide) (by decide))).trans (tail_v39 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference program's two results, read at one entry.

  The program is a graph-convolution layer over 50000 nodes and 850000 edges (the given 800000 and one self-loop per
  node). With src, dst the edges' end points, deg n the number of edges arriving at n and d n = 1/sqrt(deg n) where
  deg n > 0 and 0 elsewhere, each of the two results is, at node n and column q,

      (0 + Σ_{e : dst e = n} (d (src e) * d (dst e)) * (x W)[src e, q]) + b[q],

  with (x W)[r, q] = Σ_k x[r, k] * W[k, q]. The end points enter a gather through the rule that a negative index word counts from the end (it
  has 50000 added; the gather then clamps into [0, 49999]): that is the row rowOf of the word. The two end-point
  vectors and the degree are never opened: the statement holds for every value they take.
-/
import proofs.«172382_j23441931501602_2_alg».proof.Proof.RefRead
import proofs.«172382_j23441931501602_2_alg».proof.Proof.LibScatterRows
import proofs.«172382_j23441931501602_2_alg».proof.Proof.LibGather
import proofs.«172382_j23441931501602_2_alg».proof.Proof.Spec
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Cert.ReferenceIdeal.ReadP Cert.Gcn
open Idealize.ShloMosaic Idealize.ShloMosaic.ValueIdx
open Idealize.ShloMosaic.ScatterRows Idealize.ShloMosaic.GatherRows

/-! ## The three vectors the statement is written in -/

/-- The edges' source end points: the given 800000 followed by the 50000 self-loops. Never opened. -/
abbrev srcv (x1 : IVec S2x800000 32) : IVec S850000 32 := val_main_v3 (F := Ideal) x1
/-- The edges' destination end points, likewise. Never opened. -/
abbrev dstv (x1 : IVec S2x800000 32) : IVec S850000 32 := val_main_v6 (F := Ideal) x1
/-- The per-node factor: the reciprocal square root of the in-degree where that is positive, 0 elsewhere. -/
abbrev dinv (x1 : IVec S2x800000 32) : FVec Ideal S50000 .f32 := val_main_v14 (F := Ideal) x1

/-! ## The factor is a nonnegative real, whatever the degree -/

theorem nn_dinv_entry (x1 : IVec S2x800000 32) (n : Fin 50000) : NN (dinv x1 (ix1 n)) := by
  show NN (val_main_v14 (F := Ideal) x1 (ix1 n))
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = deg
  exact nn_dinv deg

/-! ## The three non-pointwise operations over variables

  Each of the program's dimension records is the general one at the literal extents. -/

/-- A gather of entries of a 50000-vector by an index column whose entry e is the wrapped word b reads row rowOf b. -/
theorem gatherVec_read (d : FVec Ideal S50000 .f32) (idx : IVec S850000x1 32) (e : Fin 850000) (b : BitVec 32)
    (h : idx (ix2 e (0 : Fin 1)) = wrapIdx b) :
    Host.gather gather_S50000_S850000x1_S850000_n_0_n_n_0_1_1 d idx (ix1 e) = d (ix1 (rowOf b)) := by
  refine (gather_vec_apply (N := 50000) (E := 850000) (by decide)
    Facts₀.gather_S50000_S850000x1_S850000_n_0_n_n_0_1_1_wf d idx e).trans ?_
  exact congrArg (fun r => d (ix1 r)) (Fin.ext (congrArg (fun w : BitVec 32 => min w.toInt.toNat (50000 - 1)) h))

/-- A gather of rows of a 50000 x 64 array, likewise, column by column. -/
theorem gatherRow_read (y : FVec Ideal S50000x64 .f32) (idx : IVec S850000x1 32) (e : Fin 850000) (q : Fin 64)
    (b : BitVec 32) (h : idx (ix2 e (0 : Fin 1)) = wrapIdx b) :
    Host.gather gather_S50000x64_S850000x1_S850000x64_1_0_n_n_0_1_164 y idx (ix2 e q) = y (ix2 (rowOf b) q) := by
  refine (gather_rows_apply (N := 50000) (E := 850000) (W := 64) (by decide)
    Facts₀.gather_S50000x64_S850000x1_S850000x64_1_0_n_n_0_1_164_wf y idx e q).trans ?_
  exact congrArg (fun r => y (ix2 r q)) (Fin.ext (congrArg (fun w : BitVec 32 => min w.toInt.toNat (50000 - 1)) h))

/-- The scatter-add of 850000 rows into a 50000 x 64 array at (n, q): the initial entry plus the rows whose segment
    id is n, in column q. -/
theorem scatter_read (z : FVec Ideal S50000x64 .f32) (idx : IVec S850000x1 32) (upd : FVec Ideal S850000x64 .f32)
    (n : Fin 50000) (q : Fin 64) :
    Host.scatterAdd scatter_S50000x64_S850000x1_S850000x64_1_0_0_1 z idx upd (ix2 n q)
      = z (ix2 n q) + ∑ e : Fin 850000, if seg idx e = (n.val : Int) then upd (ix2 e q) else 0 :=
  scatterAdd_rows_apply (N := 50000) (E := 850000) (W := 64)
    Facts₀.scatter_S50000x64_S850000x1_S850000x64_1_0_0_1_wf z idx upd n q

/-! ## The wrapped end points

  Four index columns are built the same way from an end-point vector v: where v < 0 take v + 50000, else v. Entry
  (e, 0) of each is wrapIdx of the end point of edge e. -/

/-- Entry (e, 0) of a column made of an 850000-vector is the vector's entry e (the program's index map at coordinates). -/
theorem col_idx (e : Fin 850000) : idx_main_v20 (ix2 e (0 : Fin 1)) = ix1 e :=
  funext fun a => Fin.ext (by match a with | ⟨0, _⟩ => rfl)

theorem v20_entry (x1 : IVec S2x800000 32) (e : Fin 850000) :
    val_main_v20 (F := Ideal) x1 (ix2 e (0 : Fin 1)) = wrapIdx (srcv x1 (ix1 e)) := by
  refine (val_main_v20_apply x1 _).trans ?_
  refine (congrArg (val_main_v19 (F := Ideal) x1) (col_idx e)).trans ?_
  rw [val_main_v19_apply, val_main_v16_apply, val_main_v18_apply, val_main_v15_apply, val_main_v17_apply,
    val_main_c_apply, val_main_c_3_apply]
  rfl

theorem v27_entry (x1 : IVec S2x800000 32) (e : Fin 850000) :
    val_main_v27 (F := Ideal) x1 (ix2 e (0 : Fin 1)) = wrapIdx (dstv x1 (ix1 e)) := by
  refine (val_main_v27_apply x1 _).trans ?_
  refine (congrArg (val_main_v26 (F := Ideal) x1) (col_idx e)).trans ?_
  rw [val_main_v26_apply, val_main_v23_apply, val_main_v25_apply, val_main_v22_apply, val_main_v24_apply,
    val_main_c_4_apply, val_main_c_5_apply]
  rfl

theorem v37_entry (x1 : IVec S2x800000 32) (e : Fin 850000) :
    val_main_v37 (F := Ideal) x1 (ix2 e (0 : Fin 1)) = wrapIdx (srcv x1 (ix1 e)) := by
  refine (val_main_v37_apply x1 _).trans ?_
  refine (congrArg (val_main_v36 (F := Ideal) x1) (col_idx e)).trans ?_
  rw [val_main_v36_apply, val_main_v33_apply, val_main_v35_apply, val_main_v32_apply, val_main_v34_apply,
    val_main_c_6_apply, val_main_c_7_apply]
  rfl

theorem v54_entry (x1 : IVec S2x800000 32) (e : Fin 850000) :
    val_main_v54 (F := Ideal) x1 (ix2 e (0 : Fin 1)) = wrapIdx (srcv x1 (ix1 e)) := by
  refine (val_main_v54_apply x1 _).trans ?_
  refine (congrArg (val_main_v53 (F := Ideal) x1) (col_idx e)).trans ?_
  rw [val_main_v53_apply, val_main_v50_apply, val_main_v52_apply, val_main_v49_apply, val_main_v51_apply,
    val_main_c_9_apply, val_main_c_10_apply]
  rfl

/-! ## The edge coefficient: the product of the two end points' factors -/

theorem v21_entry (x1 : IVec S2x800000 32) (e : Fin 850000) :
    val_main_v21 (F := Ideal) x1 (ix1 e) = dinv x1 (ix1 (rowOf (srcv x1 (ix1 e)))) := by
  unfold val_main_v21
  exact gatherVec_read _ _ e _ (v20_entry x1 e)

theorem v28_entry (x1 : IVec S2x800000 32) (e : Fin 850000) :
    val_main_v28 (F := Ideal) x1 (ix1 e) = dinv x1 (ix1 (rowOf (dstv x1 (ix1 e)))) := by
  unfold val_main_v28
  exact gatherVec_read _ _ e _ (v27_entry x1 e)

theorem v29_entry (x1 : IVec S2x800000 32) (e : Fin 850000) :
    val_main_v29 (F := Ideal) x1 (ix1 e)
      = dinv x1 (ix1 (rowOf (srcv x1 (ix1 e)))) * dinv x1 (ix1 (rowOf (dstv x1 (ix1 e)))) := by
  rw [val_main_v29_apply, v21_entry, v28_entry]
  rfl

/-! ## The transformed features: a row of x times a column of W -/

theorem v30_entry (x0 : FVec Ideal S50000x128 .f32) (x2 : FVec Ideal S128x64 .f32) (r : Fin 50000) (q : Fin 64) :
    val_main_v30 (F := Ideal) x0 x2 (ix2 r q) = ∑ k : Fin 128, x0 (ix2 r k) * x2 (ix2 k q) := by
  refine (val_main_v30_apply x0 x2 _).trans ?_
  refine Finset.sum_congr rfl fun k _ => ?_
  have hl : lidx_main_v30 (ix2 r q) k = ix2 r k :=
    funext fun a => Fin.ext (by match a with | ⟨0, _⟩ => rfl | ⟨1, _⟩ => rfl)
  have hr : ridx_main_v30 (ix2 r q) k = ix2 k q :=
    funext fun a => Fin.ext (by match a with | ⟨0, _⟩ => rfl | ⟨1, _⟩ => rfl)
  rw [hl, hr]

theorem v47_entry (x0 : FVec Ideal S50000x128 .f32) (x4 : FVec Ideal S128x64 .f32) (r : Fin 50000) (q : Fin 64) :
    val_main_v47 (F := Ideal) x0 x4 (ix2 r q) = ∑ k : Fin 128, x0 (ix2 r k) * x4 (ix2 k q) := by
  refine (val_main_v47_apply x0 x4 _).trans ?_
  refine Finset.sum_congr rfl fun k _ => ?_
  have hl : lidx_main_v47 (ix2 r q) k = ix2 r k :=
    funext fun a => Fin.ext (by match a with | ⟨0, _⟩ => rfl | ⟨1, _⟩ => rfl)
  have hr : ridx_main_v47 (ix2 r q) k = ix2 k q :=
    funext fun a => Fin.ext (by match a with | ⟨0, _⟩ => rfl | ⟨1, _⟩ => rfl)
  rw [hl, hr]

theorem v38_entry (x0 : FVec Ideal S50000x128 .f32) (x1 : IVec S2x800000 32) (x2 : FVec Ideal S128x64 .f32)
    (e : Fin 850000) (q : Fin 64) :
    val_main_v38 (F := Ideal) x0 x1 x2 (ix2 e q)
      = ∑ k : Fin 128, x0 (ix2 (rowOf (srcv x1 (ix1 e))) k) * x2 (ix2 k q) := by
  unfold val_main_v38
  exact (gatherRow_read _ _ e q _ (v37_entry x1 e)).trans (v30_entry x0 x2 _ q)

theorem v55_entry (x0 : FVec Ideal S50000x128 .f32) (x1 : IVec S2x800000 32) (x4 : FVec Ideal S128x64 .f32)
    (e : Fin 850000) (q : Fin 64) :
    val_main_v55 (F := Ideal) x0 x1 x4 (ix2 e q)
      = ∑ k : Fin 128, x0 (ix2 (rowOf (srcv x1 (ix1 e))) k) * x4 (ix2 k q) := by
  unfold val_main_v55
  exact (gatherRow_read _ _ e q _ (v54_entry x1 e)).trans (v47_entry x0 x4 _ q)

/-! ## The message of edge e in column q: coefficient times transformed source row -/

/-- Entry (e, q) of the coefficient spread over 64 columns comes from entry (e, 0) of the coefficient column. -/
theorem spread_idx (e : Fin 850000) (q : Fin 64) : idx_main_v39 (ix2 e q) = ix2 e (0 : Fin 1) :=
  funext fun a => Fin.ext (by match a with | ⟨0, _⟩ => rfl | ⟨1, _⟩ => rfl)

theorem v39_entry (x1 : IVec S2x800000 32) (e : Fin 850000) (q : Fin 64) :
    val_main_v39 (F := Ideal) x1 (ix2 e q)
      = dinv x1 (ix1 (rowOf (srcv x1 (ix1 e)))) * dinv x1 (ix1 (rowOf (dstv x1 (ix1 e)))) := by
  refine (val_main_v39_apply x1 _).trans ?_
  refine (congrArg (val_main_v31 (F := Ideal) x1) (spread_idx e q)).trans ?_
  refine (val_main_v31_apply x1 _).trans ?_
  exact (congrArg (val_main_v29 (F := Ideal) x1) (col_idx e)).trans (v29_entry x1 e)

theorem v56_entry (x1 : IVec S2x800000 32) (e : Fin 850000) (q : Fin 64) :
    val_main_v56 (F := Ideal) x1 (ix2 e q)
      = dinv x1 (ix1 (rowOf (srcv x1 (ix1 e)))) * dinv x1 (ix1 (rowOf (dstv x1 (ix1 e)))) := by
  refine (val_main_v56_apply x1 _).trans ?_
  refine (congrArg (val_main_v48 (F := Ideal) x1) (spread_idx e q)).trans ?_
  refine (val_main_v48_apply x1 _).trans ?_
  exact (congrArg (val_main_v29 (F := Ideal) x1) (col_idx e)).trans (v29_entry x1 e)

theorem v40_entry (x0 : FVec Ideal S50000x128 .f32) (x1 : IVec S2x800000 32) (x2 : FVec Ideal S128x64 .f32)
    (e : Fin 850000) (q : Fin 64) :
    val_main_v40 (F := Ideal) x0 x1 x2 (ix2 e q)
      = (dinv x1 (ix1 (rowOf (srcv x1 (ix1 e)))) * dinv x1 (ix1 (rowOf (dstv x1 (ix1 e)))))
          * ∑ k : Fin 128, x0 (ix2 (rowOf (srcv x1 (ix1 e))) k) * x2 (ix2 k q) := by
  rw [val_main_v40_apply, v39_entry, v38_entry]
  rfl

theorem v57_entry (x0 : FVec Ideal S50000x128 .f32) (x1 : IVec S2x800000 32) (x4 : FVec Ideal S128x64 .f32)
    (e : Fin 850000) (q : Fin 64) :
    val_main_v57 (F := Ideal) x0 x1 x4 (ix2 e q)
      = (dinv x1 (ix1 (rowOf (srcv x1 (ix1 e)))) * dinv x1 (ix1 (rowOf (dstv x1 (ix1 e)))))
          * ∑ k : Fin 128, x0 (ix2 (rowOf (srcv x1 (ix1 e))) k) * x4 (ix2 k q) := by
  rw [val_main_v57_apply, v56_entry, v55_entry]
  rfl

/-! ## The aggregation: messages summed over the edges arriving at n -/

/-- The segment id of edge e in the scatters' index column is its destination end point, read signed. -/
theorem seg_v42 (x1 : IVec S2x800000 32) (e : Fin 850000) :
    seg (val_main_v42 (F := Ideal) x1) e = (dstv x1 (ix1 e)).toInt := by
  unfold seg
  refine congrArg BitVec.toInt ?_
  exact (val_main_v42_apply x1 _).trans (congrArg (val_main_v6 (F := Ideal) x1) (col_idx e))

theorem seg_v59 (x1 : IVec S2x800000 32) (e : Fin 850000) :
    seg (val_main_v59 (F := Ideal) x1) e = (dstv x1 (ix1 e)).toInt := by
  unfold seg
  refine congrArg BitVec.toInt ?_
  exact (val_main_v59_apply x1 _).trans (congrArg (val_main_v6 (F := Ideal) x1) (col_idx e))

theorem v43_entry (x0 : FVec Ideal S50000x128 .f32) (x1 : IVec S2x800000 32) (x2 : FVec Ideal S128x64 .f32)
    (n : Fin 50000) (q : Fin 64) :
    val_main_v43 (F := Ideal) x0 x1 x2 (ix2 n q)
      = Ideal.ofBits .f32 0x00000000#32
        + ∑ e : Fin 850000, if (dstv x1 (ix1 e)).toInt = (n.val : Int) then
            (dinv x1 (ix1 (rowOf (srcv x1 (ix1 e)))) * dinv x1 (ix1 (rowOf (dstv x1 (ix1 e)))))
              * ∑ k : Fin 128, x0 (ix2 (rowOf (srcv x1 (ix1 e))) k) * x2 (ix2 k q)
          else 0 := by
  unfold val_main_v43
  refine (scatter_read _ _ _ n q).trans ?_
  refine congrArg₂ (· + ·) ?_ (Finset.sum_congr rfl fun e _ => ?_)
  · rw [val_main_v41_apply, val_main_cst_8_apply]
    rfl
  · rw [seg_v42, v40_entry]

theorem v60_entry (x0 : FVec Ideal S50000x128 .f32) (x1 : IVec S2x800000 32) (x4 : FVec Ideal S128x64 .f32)
    (n : Fin 50000) (q : Fin 64) :
    val_main_v60 (F := Ideal) x0 x1 x4 (ix2 n q)
      = Ideal.ofBits .f32 0x00000000#32
        + ∑ e : Fin 850000, if (dstv x1 (ix1 e)).toInt = (n.val : Int) then
            (dinv x1 (ix1 (rowOf (srcv x1 (ix1 e)))) * dinv x1 (ix1 (rowOf (dstv x1 (ix1 e)))))
              * ∑ k : Fin 128, x0 (ix2 (rowOf (srcv x1 (ix1 e))) k) * x4 (ix2 k q)
          else 0 := by
  unfold val_main_v60
  refine (scatter_read _ _ _ n q).trans ?_
  refine congrArg₂ (· + ·) ?_ (Finset.sum_congr rfl fun e _ => ?_)
  · rw [val_main_v58_apply, val_main_cst_11_apply]
    rfl
  · rw [seg_v59, v57_entry]

/-! ## The bias, and the two results -/

/-- Entry (n, q) of the bias spread over the rows is entry q of the bias. -/
theorem bias_idx (n : Fin 50000) (q : Fin 64) : idx_main_v44 (idx_main_v45 (ix2 n q)) = ix1 q :=
  funext fun a => Fin.ext (by match a with | ⟨0, _⟩ => rfl)

theorem v45_entry (x3 : FVec Ideal S64 .f32) (n : Fin 50000) (q : Fin 64) :
    val_main_v45 (F := Ideal) x3 (ix2 n q) = x3 (ix1 q) := by
  refine (val_main_v45_apply (F := Ideal) x3 _).trans ?_
  refine (val_main_v44_apply (F := Ideal) x3 _).trans ?_
  exact congrArg x3 (bias_idx n q)

theorem v62_entry (x5 : FVec Ideal S64 .f32) (n : Fin 50000) (q : Fin 64) :
    val_main_v62 (F := Ideal) x5 (ix2 n q) = x5 (ix1 q) := by
  refine (val_main_v62_apply (F := Ideal) x5 _).trans ?_
  refine (val_main_v61_apply (F := Ideal) x5 _).trans ?_
  exact congrArg x5 (bias_idx n q)

/-- THE FIRST RESULT AT (n, q). -/
theorem v46_apply (x0 : FVec Ideal S50000x128 .f32) (x1 : IVec S2x800000 32) (x2 : FVec Ideal S128x64 .f32)
    (x3 : FVec Ideal S64 .f32) (n : Fin 50000) (q : Fin 64) :
    val_main_v46 (F := Ideal) x0 x1 x2 x3 (ix2 n q)
      = (Ideal.ofBits .f32 0x00000000#32
          + ∑ e : Fin 850000, if (dstv x1 (ix1 e)).toInt = (n.val : Int) then
              (dinv x1 (ix1 (rowOf (srcv x1 (ix1 e)))) * dinv x1 (ix1 (rowOf (dstv x1 (ix1 e)))))
                * ∑ k : Fin 128, x0 (ix2 (rowOf (srcv x1 (ix1 e))) k) * x2 (ix2 k q)
            else 0)
        + x3 (ix1 q) := by
  rw [val_main_v46_apply, v43_entry, v45_entry]
  rfl

/-- THE SECOND RESULT AT (n, q): the same layer with the other weight matrix and bias. -/
theorem v63_apply (x0 : FVec Ideal S50000x128 .f32) (x1 : IVec S2x800000 32) (x4 : FVec Ideal S128x64 .f32)
    (x5 : FVec Ideal S64 .f32) (n : Fin 50000) (q : Fin 64) :
    val_main_v63 (F := Ideal) x0 x1 x4 x5 (ix2 n q)
      = (Ideal.ofBits .f32 0x00000000#32
          + ∑ e : Fin 850000, if (dstv x1 (ix1 e)).toInt = (n.val : Int) then
              (dinv x1 (ix1 (rowOf (srcv x1 (ix1 e)))) * dinv x1 (ix1 (rowOf (dstv x1 (ix1 e)))))
                * ∑ k : Fin 128, x0 (ix2 (rowOf (srcv x1 (ix1 e))) k) * x4 (ix2 k q)
            else 0)
        + x5 (ix1 q) := by
  rw [val_main_v63_apply, v60_entry, v62_entry]
  rfl

end Cert.ReferenceIdeal.RefValue

end
-- ==== Proof.Chain.lean ====
/-
  The two programs compute their index vectors and their normalization factor by the same operations of the edge-index
  array: the same functions, read in either program's vocabulary.
-/
import proofs.«172382_j23441931501602_2_alg».proof.Proof.KernelHost
import proofs.«172382_j23441931501602_2_alg».proof.Proof.RefRead
import Idealize.ShloMosaic.PureOps.Ideal

set_option maxRecDepth 16384

noncomputable section

namespace Cert.Bridge

open Idealize.ShloMosaic

/-- The source index vector. -/
theorem src_eq (x1 : IVec ⟨2, ![2, 800000]⟩ 32) :
    Cert.KernelIdeal.HostSide.srcK (F := Ideal) x1 = Cert.ReferenceIdeal.ReadP.val_main_v3 (F := Ideal) x1 := rfl

/-- The destination index vector. -/
theorem dst_eq (x1 : IVec ⟨2, ![2, 800000]⟩ 32) :
    Cert.KernelIdeal.HostSide.dstK (F := Ideal) x1 = Cert.ReferenceIdeal.ReadP.val_main_v6 (F := Ideal) x1 := rfl

/-- The normalization factor. -/
theorem dinv_eq (x1 : IVec ⟨2, ![2, 800000]⟩ 32) :
    Cert.KernelIdeal.HostSide.dinvK (F := Ideal) x1 = Cert.ReferenceIdeal.ReadP.val_main_v14 (F := Ideal) x1 := rfl

end Cert.Bridge

end
-- ==== Proof.Bridge.lean ====
/-
  The two programs' results are the same functions of the arguments.

  At entry (n, q) the kernel program holds  d n * (0 + ∑ over the edges e arriving at n of R (ρ e) q') + b q,  where R is
  the region's output, R r q' = d r * ∑ k, x r k * W k q', W the two weight matrices side by side (column q' = q of the
  first for the first result, q' = 64 + q, i.e. column q of the second, for the second result), and ρ e the source row
  of e. The reference holds  (0 + ∑ over the same edges of (d (ρ e) * d (δ e)) * ∑ k, x (ρ e) k * W k q) + b q  with δ e the
  destination row of e, which is n for an edge arriving at n. The factor d n is a nonnegative real, so it moves into the
  sum (Spec's `scale_sum`), and the two sides agree term by term.
-/
import proofs.«172382_j23441931501602_2_alg».proof.Proof.KernelValue
import proofs.«172382_j23441931501602_2_alg».proof.Proof.KernelResult
import proofs.«172382_j23441931501602_2_alg».proof.Proof.RefValue
import proofs.«172382_j23441931501602_2_alg».proof.Proof.Chain
import proofs.«172382_j23441931501602_2_alg».proof.Proof.LibHostRows
import Idealize.ShloMosaic.Lib.Pipeline.Value

set_option maxRecDepth 16384

open scoped BigOperators

noncomputable section

namespace Cert.Bridge

open Cert.KernelIdeal Cert.KernelIdeal.Gen Cert.KernelIdeal.HostSide Cert.KernelIdeal.Result
open Idealize.ShloMosaic Idealize.ShloMosaic.TcCoe Idealize.ShloMosaic.ValueIdx Idealize.SL.Sem Cert.Gcn Cert.HostRows
open Cert.ReferenceIdeal.RefValue (srcv dstv dinv v46_apply v63_apply nn_dinv_entry)

/-! ## The joined weights, column by column -/

/-- A column of the first half of the joined weights is the first matrix's. -/
theorem wcat_lo (x2 x4 : FVec Ideal S128x64 .f32) (k : Fin 128) (q : Fin 64) :
    concatenate S128x128 1 [⟨S128x64, x2⟩, ⟨S128x64, x4⟩] concatenates_S128x64_S128x64_S128x128_d1
        (ix2 k (⟨q.val, by omega⟩ : Fin 128)) = x2 (ix2 k q) :=
  concatenate_pair_apply_left (t := S128x128) (s₁ := S128x64) (s₂ := S128x64) (1 : Fin 2) x2 x4
    concatenates_S128x64_S128x64_S128x128_d1 (ix2 k (⟨q.val, by omega⟩ : Fin 128)) rfl (ix2 k q)
    (fun b => match b with | ⟨0, _⟩ => rfl | ⟨1, _⟩ => rfl)

/-- A column of the second half of the joined weights is the second matrix's. -/
theorem wcat_hi (x2 x4 : FVec Ideal S128x64 .f32) (k : Fin 128) (q : Fin 64) :
    concatenate S128x128 1 [⟨S128x64, x2⟩, ⟨S128x64, x4⟩] concatenates_S128x64_S128x64_S128x128_d1
        (ix2 k (⟨64 + q.val, by omega⟩ : Fin 128)) = x4 (ix2 k q) :=
  concatenate_pair_apply_right (t := S128x128) (s₁ := S128x64) (s₂ := S128x64) (1 : Fin 2) x2 x4
    concatenates_S128x64_S128x64_S128x128_d1 (ix2 k (⟨64 + q.val, by omega⟩ : Fin 128)) rfl rfl (ix2 k q)
    (fun b hb => match b, hb with
      | ⟨0, _⟩, _ => rfl
      | ⟨1, _⟩, hb => absurd rfl hb)
    (by show q.val + 64 = 64 + q.val; omega)

section

variable (m : (ℓ : Loc nD τ sig) → Buf (Elt Ideal) ℓ) (c : Dev nD)

/-- The region's output array after the run, the three arrays the region reads as it finds them, and the six arguments as
    launched: each as a plain array. -/
abbrev arrOut : FVec Ideal S50000x128 .f32 := (dats m 0 c).arrAt 3 cfg0.N
abbrev dcol : FVec Ideal S50000x1 .f32 := V m c main_v15
abbrev xb : FVec Ideal S50000x128 .bf16 := V m c main_v17
abbrev wb : FVec Ideal S128x128 .bf16 := V m c main_v18
abbrev a0 : FVec Ideal S50000x128 .f32 := m ((c : Thread nD τ).loc main_arg0)
abbrev a1 : IVec S2x800000 32 := m ((c : Thread nD τ).loc main_arg1)
abbrev a2 : FVec Ideal S128x64 .f32 := m ((c : Thread nD τ).loc main_arg2)
abbrev a3 : FVec Ideal S64 .f32 := m ((c : Thread nD τ).loc main_arg3)
abbrev a4 : FVec Ideal S128x64 .f32 := m ((c : Thread nD τ).loc main_arg4)
abbrev a5 : FVec Ideal S64 .f32 := m ((c : Thread nD τ).loc main_arg5)

/-- What the region's output array is taken to hold at (r, q'): the factor of row r times row r of the bf16 features
    against column q' of the bf16 joined weights (KernelBlock proves it of the run). -/
def RegionHolds : Prop :=
  ∀ (r : Fin 50000) (q' : Fin 128),
    arrOut m c (ix2 r q') = dcol m c (ix2 r (0 : Fin 1)) * ∑ k : Fin 128, xb m c (ix2 r k) * wb m c (ix2 k q')

/-- The region's output at (r, q') in the arguments: the factor of r times row r of the features against column q' of the
    joined weights (a change of float format is the identity on the extended reals). -/
theorem region_entry (hfin : RegionHolds m c) (r : Fin 50000) (q' : Fin 128) :
    arrOut m c (ix2 r q')
      = dinvK (F := Ideal) (a1 m c) (ix1 r)
          * ∑ k : Fin 128, a0 m c (ix2 r k)
              * concatenate S128x128 1 [⟨S128x64, a2 m c⟩, ⟨S128x64, a4 m c⟩] concatenates_S128x64_S128x64_S128x128_d1 (ix2 k q') := by
  rw [hfin r q']
  simp only [dcol, xb, wb]
  rw [V_v15, V_v17, V_v18, colOfVec_apply _ bcast_S50000_S50000x1_0 r (0 : Fin 1)]
  rfl

/-- THE FIRST RESULT at (n, q): the kernel program's is the reference's function of the arguments there. -/
theorem lo_entry (hfin : RegionHolds m c) (n : Fin 50000) (q : Fin 64) :
    (out0 m c : FVec Ideal S50000x64 .f32) (ix2 n q)
      = Cert.ReferenceIdeal.ReadP.val_main_v46 (F := Ideal) (a0 m c) (a1 m c) (a2 m c) (a3 m c) (ix2 n q) := by
  have hent : ∀ e : Fin 850000,
      arrOut m c (ix2 (rowOf (srcv (a1 m c) (ix1 e))) (⟨q.val, by omega⟩ : Fin 128))
        = dinv (a1 m c) (ix1 (rowOf (srcv (a1 m c) (ix1 e))))
            * ∑ k : Fin 128, a0 m c (ix2 (rowOf (srcv (a1 m c) (ix1 e))) k) * a2 m c (ix2 k q) := fun e => by
    rw [region_entry m c hfin, dinv_eq]
    refine congrArg₂ (· * ·) rfl (Finset.sum_congr rfl fun k _ => ?_)
    rw [wcat_lo]
  unfold out0
  rw [outLoK_apply, v46_apply]
  rw [V_v15, V_v3, V_v6, colOfVec_apply _ bcast_S50000_S50000x1_0 n (0 : Fin 1), src_eq, dst_eq, dinv_eq]
  refine congrArg₂ (· + ·) ?_ rfl
  refine Eq.trans ?_ (scale_sum (dinv (a1 m c) (ix1 n)) _ (nn_dinv_entry _ n) Ideal.ofBits_zero_f32
    (fun e : Fin 850000 => (dstv (a1 m c) (ix1 e)).toInt = (n.val : Int))
    (fun e => dinv (a1 m c) (ix1 (rowOf (srcv (a1 m c) (ix1 e)))))
    (fun e => dinv (a1 m c) (ix1 (rowOf (srcv (a1 m c) (ix1 e)))) * dinv (a1 m c) (ix1 (rowOf (dstv (a1 m c) (ix1 e)))))
    (fun e => ∑ k : Fin 128, a0 m c (ix2 (rowOf (srcv (a1 m c) (ix1 e))) k) * a2 m c (ix2 k q))
    (fun e he => by rw [rowOf_of_toInt _ n he]))
  refine congrArg₂ (· * ·) rfl (congrArg₂ (· + ·) rfl (Finset.sum_congr rfl fun e _ => ?_))
  exact if_congr Iff.rfl (hent e) rfl

/-- THE SECOND RESULT at (n, q): the kernel program's is the reference's function of the arguments there. -/
theorem hi_entry (hfin : RegionHolds m c) (n : Fin 50000) (q : Fin 64) :
    (out1 m c : FVec Ideal S50000x64 .f32) (ix2 n q)
      = Cert.ReferenceIdeal.ReadP.val_main_v63 (F := Ideal) (a0 m c) (a1 m c) (a4 m c) (a5 m c) (ix2 n q) := by
  have hent : ∀ e : Fin 850000,
      arrOut m c (ix2 (rowOf (srcv (a1 m c) (ix1 e))) (⟨64 + q.val, by omega⟩ : Fin 128))
        = dinv (a1 m c) (ix1 (rowOf (srcv (a1 m c) (ix1 e))))
            * ∑ k : Fin 128, a0 m c (ix2 (rowOf (srcv (a1 m c) (ix1 e))) k) * a4 m c (ix2 k q) := fun e => by
    rw [region_entry m c hfin, dinv_eq]
    refine congrArg₂ (· * ·) rfl (Finset.sum_congr rfl fun k _ => ?_)
    rw [wcat_hi]
  unfold out1
  rw [outHiK_apply, v63_apply]
  rw [V_v15, V_v3, V_v6, colOfVec_apply _ bcast_S50000_S50000x1_0 n (0 : Fin 1), src_eq, dst_eq, dinv_eq]
  refine congrArg₂ (· + ·) ?_ rfl
  refine Eq.trans ?_ (scale_sum (dinv (a1 m c) (ix1 n)) _ (nn_dinv_entry _ n) Ideal.ofBits_zero_f32
    (fun e : Fin 850000 => (dstv (a1 m c) (ix1 e)).toInt = (n.val : Int))
    (fun e => dinv (a1 m c) (ix1 (rowOf (srcv (a1 m c) (ix1 e)))))
    (fun e => dinv (a1 m c) (ix1 (rowOf (srcv (a1 m c) (ix1 e)))) * dinv (a1 m c) (ix1 (rowOf (dstv (a1 m c) (ix1 e)))))
    (fun e => ∑ k : Fin 128, a0 m c (ix2 (rowOf (srcv (a1 m c) (ix1 e))) k) * a4 m c (ix2 k q))
    (fun e he => by rw [rowOf_of_toInt _ n he]))
  refine congrArg₂ (· * ·) rfl (congrArg₂ (· + ·) rfl (Finset.sum_congr rfl fun e _ => ?_))
  exact if_congr Iff.rfl (hent e) rfl

/-- THE FIRST RESULT, as arrays. -/
theorem lo_eq (hfin : RegionHolds m c) :
    @Eq (FVec Ideal S50000x64 .f32) (out0 m c)
      (Cert.ReferenceIdeal.ReadP.val_main_v46 (F := Ideal) (a0 m c) (a1 m c) (a2 m c) (a3 m c)) :=
  funext fun i => by
    rw [eq_ix2 i]
    exact lo_entry m c hfin (i 0) (i 1)

/-- THE SECOND RESULT, as arrays. -/
theorem hi_eq (hfin : RegionHolds m c) :
    @Eq (FVec Ideal S50000x64 .f32) (out1 m c)
      (Cert.ReferenceIdeal.ReadP.val_main_v63 (F := Ideal) (a0 m c) (a1 m c) (a4 m c) (a5 m c)) :=
  funext fun i => by
    rw [eq_ix2 i]
    exact hi_entry m c hfin (i 0) (i 1)

end

end Cert.Bridge

end
-- ==== Proof.RefSide.lean ====
/-
  The reference program's run with its two results stated as the composed operations of the ARGUMENTS' launch contents
  (the read-back functions `val_main_v46`, `val_main_v63`), and those functions' dependence on nothing but their four arrays.
-/
import proofs.«172382_j23441931501602_2_alg».proof.Proof.RefRead

set_option maxRecDepth 16384

noncomputable section

namespace Cert.ReferenceIdeal.RefSide

open Cert.ReferenceIdeal Cert.ReferenceIdeal.Gen Idealize.ShloMosaic Idealize.ShloMosaic.TcCoe Idealize.SL.Sem

/-- Every weakly fair execution of the reference terminates with the two results at the read-back functions of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = ReadP.val_main_v46 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v63) = ReadP.val_main_v63 (F := Ideal) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans (ReadP.val_main_v46_eq (F := Ideal) m c), (h c).2.1.trans (ReadP.val_main_v63_eq (F := Ideal) m c), (h c).2.2⟩)
    (ValueP.run (F := Ideal) m ρ)

/-- The first result's function at equal arrays. -/
theorem v46_congr {x0 y0 : FVec Ideal S50000x128 .f32} {x1 y1 : IVec S2x800000 32} {x2 y2 : FVec Ideal S128x64 .f32}
    {x3 y3 : FVec Ideal S64 .f32} (h0 : x0 = y0) (h1 : x1 = y1) (h2 : x2 = y2) (h3 : x3 = y3) :
    ReadP.val_main_v46 (F := Ideal) x0 x1 x2 x3 = ReadP.val_main_v46 (F := Ideal) y0 y1 y2 y3 := by
  subst h0 h1 h2 h3; rfl

/-- The second result's function at equal arrays. -/
theorem v63_congr {x0 y0 : FVec Ideal S50000x128 .f32} {x1 y1 : IVec S2x800000 32} {x4 y4 : FVec Ideal S128x64 .f32}
    {x5 y5 : FVec Ideal S64 .f32} (h0 : x0 = y0) (h1 : x1 = y1) (h4 : x4 = y4) (h5 : x5 = y5) :
    ReadP.val_main_v63 (F := Ideal) x0 x1 x4 x5 = ReadP.val_main_v63 (F := Ideal) y0 y1 y4 y5 := by
  subst h0 h1 h4 h5; rfl

end Cert.ReferenceIdeal.RefSide

end
-- ==== Proof.lean ====
/-
  A graph-convolution encoder: two layers  out = D^(-1/2) (A + I) D^(-1/2) (x W) + b  sharing one normalized adjacency, with
  weights W_mu and W_logstd. Here A is given by 800000 edges (source, destination) over 50000 nodes, a self-loop is appended
  per node, D is the in-degree, and d = where(D > 0, D^(-1/2), 0) the per-node factor.

  The reference forms, per layer, the edge coefficient d[src] * d[dst], multiplies it onto the gathered rows (x W)[src] and
  scatter-adds by destination. The kernel program joins the two weight matrices side by side, computes d * (x [W_mu | W_logstd])
  in one tiled matrix product (five blocks of 10000 rows, bf16 operands, f32 accumulation from zero) — the source-side factor
  folded into the product's rows —, gathers and scatter-adds ONCE over the 128 joined columns, then scales each aggregated
  row by the destination-side factor d and cuts the two halves, adding each bias.

  On the extended reals the two agree because an edge arriving at node n has destination row n (its index word, read signed,
  is n: not negative, hence not wrapped, and in range, hence not clamped), and the node's factor d n is a nonnegative REAL
  whatever the degree, so it distributes over the aggregate:  d n * ∑ (d (ρ e) * h e) = ∑ (d (ρ e) * d n) * h e.  A change of
  float format is the identity and a matrix product into a zero accumulator is the plain sum, as is the host's; the column
  q of the first (second) result reads column q (64 + q) of the joined product, which is the first (second) weight matrix's.

  The three frames are the generated ones (the reference's is its run with the results dropped); nothing was idealized by
  rewriting, so `preserves` is `True`.
-/
import proofs.«172382_j23441931501602_2_alg».proof.Defs
import proofs.«172382_j23441931501602_2_alg».proof.Proof.Gen.Kernel
import proofs.«172382_j23441931501602_2_alg».proof.Proof.Gen.Kernel.Skeleton
import proofs.«172382_j23441931501602_2_alg».proof.Proof.Gen.Kernel.Launch
import proofs.«172382_j23441931501602_2_alg».proof.Proof.Gen.Kernel.Points
import proofs.«172382_j23441931501602_2_alg».proof.Proof.Gen.Kernel.Frame
import proofs.«172382_j23441931501602_2_alg».proof.Proof.Gen.KernelIdeal
import proofs.«172382_j23441931501602_2_alg».proof.Proof.Gen.KernelIdeal.Skeleton
import proofs.«172382_j23441931501602_2_alg».proof.Proof.Gen.KernelIdeal.Launch
import proofs.«172382_j23441931501602_2_alg».proof.Proof.Gen.KernelIdeal.Points
import proofs.«172382_j23441931501602_2_alg».proof.Proof.Gen.KernelIdeal.Frame
import proofs.«172382_j23441931501602_2_alg».proof.Proof.Gen.ReferenceIdeal
import proofs.«172382_j23441931501602_2_alg».proof.Proof.Gen.Pre_finite_inputs
import proofs.«172382_j23441931501602_2_alg».proof.Proof.KernelBlock
import proofs.«172382_j23441931501602_2_alg».proof.Proof.Bridge
import proofs.«172382_j23441931501602_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefSide.run m ρ)

theorem preserves : Cert.preserves_Kernel_KernelIdeal := trivial

/-- The region's output array after the run holds, at (r, q'), the factor of row r times row r of the bf16 features against
    column q' of the bf16 joined weights: what each grid point wrote back, block by block. -/
theorem region_holds (m : (ℓ : Loc Cert.KernelIdeal.nD Cert.KernelIdeal.τ Cert.KernelIdeal.sig) → Buf (Elt Ideal) ℓ)
    (c : Dev Cert.KernelIdeal.nD) : Cert.Bridge.RegionHolds m c := fun r q' =>
  (Cert.KernelIdeal.Block.final3_apply m c r q').trans (Cert.KernelIdeal.Block.entry_def _ _ _ r q')

/-- Both programs end, the kernel program at `out0`, `out1` of its memory and the reference at its read-back functions of
    arguments that agree with the kernel program's: the same functions (`lo_eq`, `hi_eq`, with the region's output array
    read by `region_holds`). -/
theorem algebraic : Cert.algebraic_KernelIdeal_ReferenceIdeal := fun m ρ m' ρ' _ hagree =>
  ⟨Cert.KernelIdeal.Result.out0 m, Cert.KernelIdeal.Result.out1 m, Cert.KernelIdeal.Result.run m ρ,
    (θ_run Cert.ReferenceIdeal.defs _ _).mono (fun _ h c =>
      ⟨(h c).1.trans ((Cert.ReferenceIdeal.RefSide.v46_congr (hagree c).1 (hagree c).2.1 (hagree c).2.2.1 (hagree c).2.2.2.1).trans
          (Cert.Bridge.lo_eq m c (region_holds m c)).symm),
        (h c).2.1.trans ((Cert.ReferenceIdeal.RefSide.v63_congr (hagree c).1 (hagree c).2.1 (hagree c).2.2.2.2.1 (hagree c).2.2.2.2.2).trans
          (Cert.Bridge.hi_eq m c (region_holds m c)).symm),
        (h c).2.2⟩)
      (Cert.ReferenceIdeal.RefSide.run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
